-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x8192 : Shape := ⟨3, ![64, 4, 8192]⟩
abbrev S8192x8192 : Shape := ⟨2, ![8192, 8192]⟩
abbrev S128x8192 : Shape := ⟨2, ![128, 8192]⟩
abbrev S8192 : Shape := ⟨1, ![8192]⟩
abbrev S8192x32 : Shape := ⟨2, ![8192, 32]⟩
abbrev S_ : Shape := ⟨0, ![]⟩

class Facts : Prop where
  bcast_S_S64x4x8192 : S_.BroadcastsInDim S64x4x8192 (![] : Fin 0 → Fin S64x4x8192.rank)
  reducesTo_S64x4x8192_S_d0_1_2 : S64x4x8192.ReducesTo [0, 1, 2] S_
  h_S_ : 0 < S_.numel
  bcast_S_S128x8192 : S_.BroadcastsInDim S128x8192 (![] : Fin 0 → Fin S128x8192.rank)
  reducesTo_S128x8192_S_d0_1 : S128x8192.ReducesTo [0, 1] S_
  bcast_S_S8192 : S_.BroadcastsInDim S8192 (![] : Fin 0 → Fin S8192.rank)
  reducesTo_S8192_S_d0 : S8192.ReducesTo [0] S_
  bcast_S_S8192x32 : S_.BroadcastsInDim S8192x32 (![] : Fin 0 → Fin S8192x32.rank)
  reducesTo_S8192x32_S_d0_1 : S8192x32.ReducesTo [0, 1] S_

variable [Facts]

def fn_part1 {F : FTy → Type} [FloatOps F] (main_arg5 : FVec F S8192x32 .f32) (main_arg6 : FVec F S8192 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x32 .f32 := Host.absf main_arg5
  let main_cst_6 : FVec F S_ .f32 := constant S_ .f32 0x7F800000#32
  let main_v20 : FVec F S8192x32 .f32 := broadcastInDim S8192x32 ![] bcast_S_S8192x32 main_cst_6
  let main_v21 : IVec S8192x32 1 := cmpf .olt main_v19 main_v20
  let main_c_7 : IVec S_ 1 := constantI S_ 1 1#1
  let main_v22 : IVec S_ 1 := (fun x v => Host.reduce IntOp.andi x v reducesTo_S8192x32_S_d0_1 h_S_) main_v21 main_c_7
  let main_v23 : IVec S_ 1 := andi main_v18 main_v22
  let main_v24 : FVec F S8192 .f32 := Host.absf main_arg6
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S64x4x8192 .f32) (main_arg1 : IVec S8192x8192 32) (main_arg2 : FVec F S128x8192 .f32) (main_arg3 : FVec F S8192 .f32) (main_arg4 : FVec F S8192x32 .f32) (main_arg5 : FVec F S8192x32 .f32) (main_arg6 : FVec F S8192 .f32) : IVec S_ 1 :=
  let main_v0 : FVec F S64x4x8192 .f32 := Host.absf main_arg0
  let main_cst : FVec F S_ .f32 := constant S_ .f32 0x7F800000#32
  let main_v1 : FVec F S64x4x8192 .f32 := broadcastInDim S64x4x8192 ![] bcast_S_S64x4x8192 main_cst
  let main_v2 : IVec S64x4x8192 1 := cmpf .olt main_v0 main_v1
  let main_c : IVec S_ 1 := constantI S_ 1 1#1
  let main_v3 : IVec S_ 1 := (fun x v => Host.reduce IntOp.andi x v reducesTo_S64x4x8192_S_d0_1_2 h_S_) main_v2 main_c
  let main_v4 : FVec F S128x8192 .f32 := Host.absf main_arg2
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x32 .f32 := Host.absf main_arg4
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg5 main_arg6 main_v13 main_v16
-- ==== Kernel.lean ====
abbrev S64x4x8192 : Shape := ⟨3, ![64, 4, 8192]⟩
abbrev S8192x8192 : Shape := ⟨2, ![8192, 8192]⟩
abbrev S128x8192 : Shape := ⟨2, ![128, 8192]⟩
abbrev S8192 : Shape := ⟨1, ![8192]⟩
abbrev S8192x32 : Shape := ⟨2, ![8192, 32]⟩
abbrev S256x8192 : Shape := ⟨2, ![256, 8192]⟩
abbrev S256x32 : Shape := ⟨2, ![256, 32]⟩
abbrev S32x8192 : Shape := ⟨2, ![32, 8192]⟩
abbrev S1x8192 : Shape := ⟨2, ![1, 8192]⟩
abbrev S256x128x64 : Shape := ⟨3, ![256, 128, 64]⟩
abbrev S_ : Shape := ⟨0, ![]⟩
abbrev S256x128 : Shape := ⟨2, ![256, 128]⟩
abbrev S256x128x1 : Shape := ⟨3, ![256, 128, 1]⟩
abbrev S128 : Shape := ⟨1, ![128]⟩
abbrev S128x1 : Shape := ⟨2, ![128, 1]⟩
abbrev S8192x128 : Shape := ⟨2, ![8192, 128]⟩
abbrev S1024x1024 : Shape := ⟨2, ![1024, 1024]⟩
abbrev S1024x128 : Shape := ⟨2, ![1024, 128]⟩
abbrev S32x1024 : Shape := ⟨2, ![32, 1024]⟩
abbrev S1x1024 : Shape := ⟨2, ![1, 1024]⟩
abbrev S256x1024 : Shape := ⟨2, ![256, 1024]⟩
abbrev S128x1024 : Shape := ⟨2, ![128, 1024]⟩

abbrev nBuf : Space → Nat
  | .hbm => 69
  | .vmem => 14
  | .smem => 0
  | _ => 0

abbrev bufTy : (tb : Table) → Fin (tcTables nBuf tb) → BufTy
  | .hbm, ⟨0, _⟩ => ⟨S64x4x8192, .f32⟩
  | .hbm, ⟨1, _⟩ => ⟨S8192x8192, .i32⟩
  | .hbm, ⟨2, _⟩ => ⟨S128x8192, .f32⟩
  | .hbm, ⟨3, _⟩ => ⟨S8192, .f32⟩
  | .hbm, ⟨4, _⟩ => ⟨S8192x32, .f32⟩
  | .hbm, ⟨5, _⟩ => ⟨S8192x32, .f32⟩
  | .hbm, ⟨6, _⟩ => ⟨S8192, .f32⟩
  | .hbm, ⟨7, _⟩ => ⟨S256x8192, .f32⟩
  | .hbm, ⟨8, _⟩ => ⟨S256x32, .f32⟩
  | .hbm, ⟨9, _⟩ => ⟨S32x8192, .f32⟩
  | .hbm, ⟨10, _⟩ => ⟨S1x8192, .f32⟩
  | .hbm, ⟨11, _⟩ => ⟨S256x8192, .f32⟩
  | .hbm, ⟨12, _⟩ => ⟨S256x8192, .f32⟩
  | .hbm, ⟨13, _⟩ => ⟨S256x128x64, .f32⟩
  | .hbm, ⟨14, _⟩ => ⟨S256x128x64, .f32⟩
  | .hbm, ⟨15, _⟩ => ⟨S_, .f32⟩
  | .hbm, ⟨16, _⟩ => ⟨S256x128, .f32⟩
  | .hbm, ⟨17, _⟩ => ⟨S256x128x1, .f32⟩
  | .hbm, ⟨18, _⟩ => ⟨S_, .f32⟩
  | .hbm, ⟨19, _⟩ => ⟨S256x128x1, .f32⟩
  | .hbm, ⟨20, _⟩ => ⟨S256x128x1, .f32⟩
  | .hbm, ⟨21, _⟩ => ⟨S_, .f32⟩
  | .hbm, ⟨22, _⟩ => ⟨S256x128x1, .f32⟩
  | .hbm, ⟨23, _⟩ => ⟨S256x128x1, .f32⟩
  | .hbm, ⟨24, _⟩ => ⟨S256x128x64, .f32⟩
  | .hbm, ⟨25, _⟩ => ⟨S256x128x64, .f32⟩
  | .hbm, ⟨26, _⟩ => ⟨S256x128x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S256x128x64, .f32⟩
  | .hbm, ⟨31, _⟩ => ⟨S256x128x64, .f32⟩
  | .hbm, ⟨32, _⟩ => ⟨S_, .f32⟩
  | .hbm, ⟨33, _⟩ => ⟨S256x128x64, .f32⟩
  | .hbm, ⟨34, _⟩ => ⟨S256x128x64, .f32⟩
  | .hbm, ⟨35, _⟩ => ⟨S256x128x64, .f32⟩
  | .hbm, ⟨36, _⟩ => ⟨S256x128x64, .f32⟩
  | .hbm, ⟨37, _⟩ => ⟨S256x8192, .f32⟩
  | .hbm, ⟨38, _⟩ => ⟨S256x8192, .bf16⟩
  | .hbm, ⟨39, _⟩ => ⟨S128, .i32⟩
  | .hbm, ⟨40, _⟩ => ⟨S128x1, .i32⟩
  | .hbm, ⟨41, _⟩ => ⟨S8192, .i32⟩
  | .hbm, ⟨42, _⟩ => ⟨S1x8192, .i32⟩
  | .hbm, ⟨43, _⟩ => ⟨S_, .i32⟩
  | .hbm, ⟨44, _⟩ => ⟨S_, .i32⟩
  | .hbm, ⟨45, _⟩ => ⟨S1x8192, .i32⟩
  | .hbm, ⟨46, _⟩ => ⟨S1x8192, .i32⟩
  | .hbm, ⟨47, _⟩ => ⟨S1x8192, .i32⟩
  | .hbm, ⟨48, _⟩ => ⟨S_, .i32⟩
  | .hbm, ⟨49, _⟩ => ⟨S1x8192, .i32⟩
  | .hbm, ⟨50, _⟩ => ⟨S1x8192, .i1⟩
  | .hbm, ⟨51, _⟩ => ⟨S1x8192, .i32⟩
  | .hbm, ⟨52, _⟩ => ⟨S1x8192, .i32⟩
  | .hbm, ⟨53, _⟩ => ⟨S_, .i32⟩
  | .hbm, ⟨54, _⟩ => ⟨S1x8192, .i32⟩
  | .hbm, ⟨55, _⟩ => ⟨S1x8192, .i1⟩
  | .hbm, ⟨56, _⟩ => ⟨S1x8192, .i1⟩
  | .hbm, ⟨57, _⟩ => ⟨S_, .i32⟩
  | .hbm, ⟨58, _⟩ => ⟨S1x8192, .i32⟩
  | .hbm, ⟨59, _⟩ => ⟨S1x8192, .i32⟩
  | .hbm, ⟨60, _⟩ => ⟨S1x8192, .i32⟩
  | .hbm, ⟨61, _⟩ => ⟨S128x8192, .i32⟩
  | .hbm, ⟨62, _⟩ => ⟨S128x8192, .i32⟩
  | .hbm, ⟨63, _⟩ => ⟨S128x8192, .i1⟩
  | .hbm, ⟨64, _⟩ => ⟨S128x8192, .bf16⟩
  | .hbm, ⟨65, _⟩ => ⟨S8192x128, .f32⟩
  | .hbm, ⟨66, _⟩ => ⟨S1x8192, .f32⟩
  | .hbm, ⟨67, _⟩ => ⟨S256x8192, .f32⟩
  | .hbm, ⟨68, _⟩ => ⟨S64x4x8192, .f32⟩
  | .local _ .vmem, ⟨0, _⟩ => ⟨S1024x1024, .i32⟩
  | .local _ .vmem, ⟨1, _⟩ => ⟨S1024x1024, .i32⟩
  | .local _ .vmem, ⟨2, _⟩ => ⟨S1024x128, .f32⟩
  | .local _ .vmem, ⟨3, _⟩ => ⟨S1024x128, .f32⟩
  | .local _ .vmem, ⟨4, _⟩ => ⟨S128x8192, .bf16⟩
  | .local _ .vmem, ⟨5, _⟩ => ⟨S256x8192, .bf16⟩
  | .local _ .vmem, ⟨6, _⟩ => ⟨S256x32, .f32⟩
  | .local _ .vmem, ⟨7, _⟩ => ⟨S32x1024, .f32⟩
  | .local _ .vmem, ⟨8, _⟩ => ⟨S32x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S64x4x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_c : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_0 : Ref sig .tc := ⟨.hbm, 57, rfl⟩
abbrev main_call2_v12 : Ref sig .tc := ⟨.hbm, 58, rfl⟩
abbrev main_call2_v13 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let c0_2 : Index := 0#32
  let arg1 : BitVec 32 := BitVec.ofNat 32 (i 1).val
  let c1024_i32 : BitVec 32 := 1024#32
  let v0 : BitVec 32 := Scalar.muli arg1 c1024_i32
  let v1 : BitVec 32 := v0
  let v9 : Index := Scalar.indexCast v1
  ![0, v9.toNat]
def k0_off2 (i : grid0.Coords) : Fin 2 → Nat :=
  let c0_6 : Index := 0#32
  let arg1 : BitVec 32 := BitVec.ofNat 32 (i 1).val
  let c1024_i32 : BitVec 32 := 1024#32
  let v0 : BitVec 32 := Scalar.muli arg1 c1024_i32
  let v1 : BitVec 32 := v0
  let v18 : Index := Scalar.indexCast v1
  ![0, v18.toNat]
def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S64x4x8192_S256x8192 : S64x4x8192.ShapeCasts S256x8192
  transposes_S8192x32_S32x8192_1_0 : S8192x32.Transposes [1, 0] S32x8192
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  shapeCasts_S256x8192_S256x128x64 : S256x8192.ShapeCasts S256x128x64
  reducesTo_S256x128x64_S256x128_d2 : S256x128x64.ReducesTo [2] S256x128
  h_S_ : 0 < S_.numel
  bcast_S256x128_S256x128x1_0_1 : S256x128.BroadcastsInDim S256x128x1 (![0, 1] : Fin 2 → Fin S256x128x1.rank)
  bcast_S_S256x128x1 : S_.BroadcastsInDim S256x128x1 (![] : Fin 0 → Fin S256x128x1.rank)
  bcast_S256x128x1_S256x128x64_0_1_2 : S256x128x1.BroadcastsInDim S256x128x64 (![0, 1, 2] : Fin 3 → Fin S256x128x64.rank)
  bcast_S_S256x128x64 : S_.BroadcastsInDim S256x128x64 (![] : Fin 0 → Fin S256x128x64.rank)
  shapeCasts_S256x128x64_S256x8192 : S256x128x64.ShapeCasts S256x8192
  bitsLt_bf16_f32 : FTy.bits .bf16 < FTy.bits .f32
  bcast_S128_S128x1_0 : S128.BroadcastsInDim S128x1 (![0] : Fin 1 → Fin S128x1.rank)
  bcast_S_S1x8192 : S_.BroadcastsInDim S1x8192 (![] : Fin 0 → Fin S1x8192.rank)
  bcast_S1x8192_S128x8192_0_1 : S1x8192.BroadcastsInDim S128x8192 (![0, 1] : Fin 2 → Fin S128x8192.rank)
  bcast_S128x1_S128x8192_0_1 : S128x1.BroadcastsInDim S128x8192 (![0, 1] : Fin 2 → Fin S128x8192.rank)
  transposes_S128x8192_S8192x128_1_0 : S128x8192.Transposes [1, 0] S8192x128
  shapeCasts_S8192_S1x8192 : S8192.ShapeCasts S1x8192
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  h_S128x1024 : 0 < S128x1024.numel
  shapeCasts_S128x1024_S128x1024 : S128x1024.ShapeCasts S128x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x8192_S64x4x8192 : S256x8192.ShapeCasts S64x4x8192
  dot_S256x8192_S8192x32_S256x32_1_0_0_1_n_n_wf : DotDims.WF S256x8192 S8192x32 S256x32 [1] [0] [0] [1] [] []
  dot_S256x32_S32x1024_S256x1024_1_0_0_1_n_n_wf : DotDims.WF S256x32 S32x1024 S256x1024 [1] [0] [0] [1] [] []
  dot_S1024x128_S128x1024_S1024x1024_1_0_0_1_n_n_wf : DotDims.WF S1024x128 S128x1024 S1024x1024 [1] [0] [0] [1] [] []
  dot_S256x1024_S1024x1024_S256x1024_1_1_0_0_n_n_wf : DotDims.WF S256x1024 S1024x1024 S256x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S128x1024.size a ≤ S128x8192.size a
  k0_off2_inb : ∀ i : grid0.Coords, ∀ a, (k0_off2 i) a + S256x1024.size a ≤ S256x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .i32 = 32 ∨ (Rect.block (s := S8192x8192) S1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x8192.size a
  hwx0_2 : ∀ i : grid0.Coords, EltTy.bits .bf16 = 32 ∨ (Rect.block (s := S128x8192) S128x8192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S256x8192.size a
  hwx0_3 : ∀ i : grid0.Coords, EltTy.bits .bf16 = 32 ∨ (Rect.block (s := S256x8192) S256x8192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .f32 = 32 ∨ (Rect.block (s := S256x32) S256x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x8192.size a
  hwx0_5 : ∀ i : grid0.Coords, EltTy.bits .f32 = 32 ∨ (Rect.block (s := S32x8192) S32x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x8192.size a
  hwx0_7 : ∀ i : grid0.Coords, EltTy.bits .f32 = 32 ∨ (Rect.block (s := S256x8192) S256x1024.size (cc0_transform_7 i) (hinb0_7 i)).WholeWords (EltTy.packing .f32)

variable [Facts₀]

def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v33) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64x4x8192 : Shape := ⟨3, ![64, 4, 8192]⟩
abbrev S8192x8192 : Shape := ⟨2, ![8192, 8192]⟩
abbrev S128x8192 : Shape := ⟨2, ![128, 8192]⟩
abbrev S8192 : Shape := ⟨1, ![8192]⟩
abbrev S8192x32 : Shape := ⟨2, ![8192, 32]⟩
abbrev S256x8192 : Shape := ⟨2, ![256, 8192]⟩
abbrev S256x32 : Shape := ⟨2, ![256, 32]⟩
abbrev S32x8192 : Shape := ⟨2, ![32, 8192]⟩
abbrev S1x8192 : Shape := ⟨2, ![1, 8192]⟩
abbrev S256x128x64 : Shape := ⟨3, ![256, 128, 64]⟩
abbrev S_ : Shape := ⟨0, ![]⟩
abbrev S256x128 : Shape := ⟨2, ![256, 128]⟩
abbrev S256x128x1 : Shape := ⟨3, ![256, 128, 1]⟩
abbrev S8192x128x64 : Shape := ⟨3, ![8192, 128, 64]⟩
abbrev S8192x128 : Shape := ⟨2, ![8192, 128]⟩
abbrev S8192x128x1 : Shape := ⟨3, ![8192, 128, 1]⟩

abbrev nBuf : Space → Nat
  | .hbm => 56
  | .vmem => 0
  | .smem => 0
  | _ => 0

abbrev bufTy : (tb : Table) → Fin (tcTables nBuf tb) → BufTy
  | .hbm, ⟨0, _⟩ => ⟨S64x4x8192, .f32⟩
  | .hbm, ⟨1, _⟩ => ⟨S8192x8192, .i32⟩
  | .hbm, ⟨2, _⟩ => ⟨S128x8192, .f32⟩
  | .hbm, ⟨3, _⟩ => ⟨S8192, .f32⟩
  | .hbm, ⟨4, _⟩ => ⟨S8192x32, .f32⟩
  | .hbm, ⟨5, _⟩ => ⟨S8192x32, .f32⟩
  | .hbm, ⟨6, _⟩ => ⟨S8192, .f32⟩
  | .hbm, ⟨7, _⟩ => ⟨S256x8192, .f32⟩
  | .hbm, ⟨8, _⟩ => ⟨S256x32, .f32⟩
  | .hbm, ⟨9, _⟩ => ⟨S32x8192, .f32⟩
  | .hbm, ⟨10, _⟩ => ⟨S256x8192, .f32⟩
  | .hbm, ⟨11, _⟩ => ⟨S1x8192, .f32⟩
  | .hbm, ⟨12, _⟩ => ⟨S256x8192, .f32⟩
  | .hbm, ⟨13, _⟩ => ⟨S256x8192, .f32⟩
  | .hbm, ⟨14, _⟩ => ⟨S256x128x64, .f32⟩
  | .hbm, ⟨15, _⟩ => ⟨S256x128x64, .f32⟩
  | .hbm, ⟨16, _⟩ => ⟨S_, .f32⟩
  | .hbm, ⟨17, _⟩ => ⟨S256x128, .f32⟩
  | .hbm, ⟨18, _⟩ => ⟨S256x128x1, .f32⟩
  | .hbm, ⟨19, _⟩ => ⟨S_, .f32⟩
  | .hbm, ⟨20, _⟩ => ⟨S256x128x1, .f32⟩
  | .hbm, ⟨21, _⟩ => ⟨S256x128x1, .f32⟩
  | .hbm, ⟨22, _⟩ => ⟨S_, .f32⟩
  | .hbm, ⟨23, _⟩ => ⟨S256x128x1, .f32⟩
  | .hbm, ⟨24, _⟩ => ⟨S256x128x1, .f32⟩
  | .hbm, ⟨25, _⟩ => ⟨S256x128x64, .f32⟩
  | .hbm, ⟨26, _⟩ => ⟨S256x128x64, .f32⟩
  | .hbm, ⟨27, _⟩ => ⟨S256x128x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S256x128x64, .f32⟩
  | .hbm, ⟨32, _⟩ => ⟨S256x128x64, .f32⟩
  | .hbm, ⟨33, _⟩ => ⟨S_, .f32⟩
  | .hbm, ⟨34, _⟩ => ⟨S256x128x64, .f32⟩
  | .hbm, ⟨35, _⟩ => ⟨S256x128x64, .f32⟩
  | .hbm, ⟨36, _⟩ => ⟨S256x128x64, .f32⟩
  | .hbm, ⟨37, _⟩ => ⟨S256x128x64, .f32⟩
  | .hbm, ⟨38, _⟩ => ⟨S256x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x128x64, .f32⟩
  | .hbm, ⟨44, _⟩ => ⟨S8192x128, .f32⟩
  | .hbm, ⟨45, _⟩ => ⟨S8192x128x1, .f32⟩
  | .hbm, ⟨46, _⟩ => ⟨S8192x128x64, .f32⟩
  | .hbm, ⟨47, _⟩ => ⟨S8192x128x64, .f32⟩
  | .hbm, ⟨48, _⟩ => ⟨S8192x8192, .f32⟩
  | .hbm, ⟨49, _⟩ => ⟨S8192x8192, .f32⟩
  | .hbm, ⟨50, _⟩ => ⟨S256x8192, .f32⟩
  | .hbm, ⟨51, _⟩ => ⟨S256x8192, .f32⟩
  | .hbm, ⟨52, _⟩ => ⟨S1x8192, .f32⟩
  | .hbm, ⟨53, _⟩ => ⟨S256x8192, .f32⟩
  | .hbm, ⟨54, _⟩ => ⟨S256x8192, .f32⟩
  | .hbm, ⟨55, _⟩ => ⟨S64x4x8192, .f32⟩
  | _, _ => ⟨S64x4x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  shapeCasts_S64x4x8192_S256x8192 : S64x4x8192.ShapeCasts S256x8192
  transposes_S8192x32_S32x8192_1_0 : S8192x32.Transposes [1, 0] S32x8192
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  shapeCasts_S256x8192_S256x128x64 : S256x8192.ShapeCasts S256x128x64
  reducesTo_S256x128x64_S256x128_d2 : S256x128x64.ReducesTo [2] S256x128
  h_S_ : 0 < S_.numel
  bcast_S256x128_S256x128x1_0_1 : S256x128.BroadcastsInDim S256x128x1 (![0, 1] : Fin 2 → Fin S256x128x1.rank)
  bcast_S_S256x128x1 : S_.BroadcastsInDim S256x128x1 (![] : Fin 0 → Fin S256x128x1.rank)
  bcast_S256x128x1_S256x128x64_0_1_2 : S256x128x1.BroadcastsInDim S256x128x64 (![0, 1, 2] : Fin 3 → Fin S256x128x64.rank)
  bcast_S_S256x128x64 : S_.BroadcastsInDim S256x128x64 (![] : Fin 0 → Fin S256x128x64.rank)
  shapeCasts_S256x128x64_S256x8192 : S256x128x64.ShapeCasts S256x8192
  bcast_S_S8192x8192 : S_.BroadcastsInDim S8192x8192 (![] : Fin 0 → Fin S8192x8192.rank)
  shapeCasts_S8192x8192_S8192x128x64 : S8192x8192.ShapeCasts S8192x128x64
  transposes_S128x8192_S8192x128_1_0 : S128x8192.Transposes [1, 0] S8192x128
  bcast_S8192x128_S8192x128x1_0_1 : S8192x128.BroadcastsInDim S8192x128x1 (![0, 1] : Fin 2 → Fin S8192x128x1.rank)
  bcast_S8192x128x1_S8192x128x64_0_1_2 : S8192x128x1.BroadcastsInDim S8192x128x64 (![0, 1, 2] : Fin 3 → Fin S8192x128x64.rank)
  shapeCasts_S8192x128x64_S8192x8192 : S8192x128x64.ShapeCasts S8192x8192
  transposes_S8192x8192_S8192x8192_1_0 : S8192x8192.Transposes [1, 0] S8192x8192
  shapeCasts_S256x8192_S64x4x8192 : S256x8192.ShapeCasts S64x4x8192
  dot_S256x8192_S8192x32_S256x32_1_0_0_1_n_n_wf : DotDims.WF S256x8192 S8192x32 S256x32 [1] [0] [0] [1] [] []
  dot_S256x32_S32x8192_S256x8192_1_0_0_1_n_n_wf : DotDims.WF S256x32 S32x8192 S256x8192 [1] [0] [0] [1] [] []
  dot_S256x8192_S8192x8192_S256x8192_1_0_0_1_n_n_wf : DotDims.WF S256x8192 S8192x8192 S256x8192 [1] [0] [0] [1] [] []

variable [Facts₀]

def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S256x32_S32x8192_S256x8192_1_0_0_1_n_n : DotDims S256x32 S32x8192 S256x8192 where
  lhsContracting := [1]
  rhsContracting := [0]
  lhsNonContracting := [0]
  rhsNonContracting := [1]
  lhsBatch := []
  rhsBatch := []
  wf := dot_S256x32_S32x8192_S256x8192_1_0_0_1_n_n_wf
def dot_S256x8192_S8192x8192_S256x8192_1_0_0_1_n_n : DotDims S256x8192 S8192x8192 S256x8192 where
  lhsContracting := [1]
  rhsContracting := [0]
  lhsNonContracting := [0]
  rhsNonContracting := [1]
  lhsBatch := []
  rhsBatch := []
  wf := dot_S256x8192_S8192x8192_S256x8192_1_0_0_1_n_n_wf

class Facts : Prop extends Facts₀ where

variable [Facts]
-- ==== Proof.LibSumTiles.lean ====
/-
  Regrouping a sum over a range cut into equal tiles.

  The indices below `n * b` are exactly the numbers `t * b + r` with `t < n` the tile and `r < b` the
  place inside the tile, each once. A sum over the whole range, in a commutative monoid, is therefore the
  sum over the tiles of each tile's own sum.
-/
import Mathlib.Algebra.BigOperators.Fin
import Mathlib.Logic.Equiv.Fin.Basic

namespace Cert.LibSumTiles

open scoped BigOperators

/-- Place `r` of tile `t` lies below `n * b`: `t * b + r < t * b + b = (t + 1) * b ≤ n * b`. -/
theorem tile_lt {n b : Nat} (t : Fin n) (r : Fin b) : t.val * b + r.val < n * b :=
  calc t.val * b + r.val < t.val * b + b := Nat.add_lt_add_left r.isLt _
    _ = (t.val + 1) * b := (Nat.succ_mul _ _).symm
    _ ≤ n * b := Nat.mul_le_mul_right b t.isLt

/-- A sum over `Fin (n * b)` is the sum over the `n` tiles of the sum over the `b` places of a tile, the
    summand taken at index `t * b + r`. It holds in any additive commutative monoid: the map
    `(t, r) ↦ t * b + r` is a bijection from pairs onto the range, and a finite sum does not depend on the
    order of its terms. -/
theorem sum_tiles {M : Type*} [AddCommMonoid M] (n b : Nat) (f : Fin (n * b) → M) :
    ∑ i, f i = ∑ t : Fin n, ∑ r : Fin b, f ⟨t.val * b + r.val, tile_lt t r⟩ := by
  rw [← Fintype.sum_prod_type']
  refine (Fintype.sum_equiv finProdFinEquiv _ _ ?_).symm
  rintro ⟨t, r⟩
  refine congrArg f (Fin.ext ?_)
  show t.val * b + r.val = r.val + b * t.val
  rw [Nat.add_comm, Nat.mul_comm]

/-- 8192 indices as 64 tiles of 128. -/
theorem sum_tiles_64_128 {M : Type*} [AddCommMonoid M] (f : Fin 8192 → M) :
    ∑ i, f i = ∑ t : Fin 64, ∑ r : Fin 128,
      f ⟨t.val * 128 + r.val, tile_lt (n := 64) (b := 128) t r⟩ :=
  sum_tiles 64 128 f

/-- 8192 indices as 16 tiles of 512. -/
theorem sum_tiles_16_512 {M : Type*} [AddCommMonoid M] (f : Fin 8192 → M) :
    ∑ i, f i = ∑ t : Fin 16, ∑ r : Fin 512,
      f ⟨t.val * 512 + r.val, tile_lt (n := 16) (b := 512) t r⟩ :=
  sum_tiles 16 512 f

end Cert.LibSumTiles
-- ==== Proof.Spec.lean ====
/-
  The quantized linear layer as ONE function of its argument arrays, and the algebra that joins the two ways
  of computing it.

  For a row m of the activations and an output channel o the result is

      ( sum over r of  la(m, r) * pu(o, r) )                      the low-rank correction
    + ( sum over c of  xd(m, c) * (code(o, c) - 8) * ws(c / 64, o) )   the dequantized product
    + bias(o)

  where xd is the dequantized activation, la the activation times the down projection, code the 4-bit weight code
  kept in a 32-bit word, and ws the scale of each group of 64 consecutive input columns.  One program expands the
  scale of a column by a product with a 0/1 matrix (row g has its ones in the columns of group g) and adds the
  product tile by tile, eight tiles of 1024 columns, onto the correction; the other multiplies each code by its
  group's scale directly and takes one sum over all 8192 columns.  In the extended reals 0 * x = 0 for every x
  and addition is commutative and associative, so the two agree with no finiteness assumption.
-/
import Idealize.ShloMosaic.PureOps.Ideal
import Idealize.ShloMosaic.Lib.ValueIdx
import proofs.«131592_j37452114821821_2_alg».proof.Proof.LibSumTiles

noncomputable section

namespace Cert.Spec

open Idealize.ShloMosaic Idealize.ShloMosaic.ValueIdx
open scoped BigOperators

/-! ## The constant 8 in the two formats it is spelt in -/

/-- The 32-bit pattern of 8.0 denotes the real 8. -/
theorem eight_f32 : Ideal.ofBits .f32 0x41000000#32 = ((8 : ℝ) : EReal) := by
  simp [Ideal.ofBits, Ideal.ieee, -EReal.coe_mul]; norm_num

/-- The 16-bit (bfloat) pattern of 8.0 denotes the real 8. -/
theorem eight_bf16 : Ideal.ofBits .bf16 0x4100#16 = ((8 : ℝ) : EReal) := by
  simp [Ideal.ofBits, Ideal.ieee, -EReal.coe_mul]; norm_num

/-! ## Columns, tiles and groups -/

/-- The group of 64 consecutive columns that column c lies in. -/
def grp (c : Fin 8192) : Fin 128 := ⟨c.val / 64, by have := c.isLt; omega⟩

/-- Place k of tile s (eight tiles of 1024): the number 1024 * s + k. -/
def col (s : Fin 8) (k : Fin 1024) : Fin 8192 := ⟨1024 * s.val + k.val, by have := s.isLt; have := k.isLt; omega⟩

theorem col_val (s : Fin 8) (k : Fin 1024) : (col s k).val = 1024 * s.val + k.val := rfl

/-! ## The function -/

/-- The dequantized weight of output channel o at input column c: the signed code less 8, times the scale of the
    column's group. -/
def wdeq (q : (⟨2, ![8192, 8192]⟩ : Shape).Idx → BitVec 32) (ws : (⟨2, ![128, 8192]⟩ : Shape).Idx → EReal)
    (o c : Fin 8192) : EReal :=
  ((((q (ix2 o c)).toInt : ℝ) : EReal) - ((8 : ℝ) : EReal)) * ws (ix2 (grp c) o)

/-- The low-rank correction at (m, o). -/
def lora (la : (⟨2, ![256, 32]⟩ : Shape).Idx → EReal) (pu : (⟨2, ![8192, 32]⟩ : Shape).Idx → EReal)
    (m : Fin 256) (o : Fin 8192) : EReal :=
  ∑ r : Fin 32, la (ix2 m r) * pu (ix2 o r)

/-- The product of the dequantized activation with the dequantized weight at (m, o): one sum over all columns. -/
def gemm (xd : (⟨2, ![256, 8192]⟩ : Shape).Idx → EReal) (q : (⟨2, ![8192, 8192]⟩ : Shape).Idx → BitVec 32)
    (ws : (⟨2, ![128, 8192]⟩ : Shape).Idx → EReal) (m : Fin 256) (o : Fin 8192) : EReal :=
  ∑ c : Fin 8192, xd (ix2 m c) * wdeq q ws o c

/-- The same product restricted to the 1024 columns of tile s. -/
def tile (xd : (⟨2, ![256, 8192]⟩ : Shape).Idx → EReal) (q : (⟨2, ![8192, 8192]⟩ : Shape).Idx → BitVec 32)
    (ws : (⟨2, ![128, 8192]⟩ : Shape).Idx → EReal) (m : Fin 256) (o : Fin 8192) (s : Fin 8) : EReal :=
  ∑ k : Fin 1024, xd (ix2 m (col s k)) * wdeq q ws o (col s k)

/-- The layer's result at (m, o). -/
def out (xd : (⟨2, ![256, 8192]⟩ : Shape).Idx → EReal) (la : (⟨2, ![256, 32]⟩ : Shape).Idx → EReal)
    (q : (⟨2, ![8192, 8192]⟩ : Shape).Idx → BitVec 32) (ws : (⟨2, ![128, 8192]⟩ : Shape).Idx → EReal)
    (pu : (⟨2, ![8192, 32]⟩ : Shape).Idx → EReal) (b : (⟨1, ![8192]⟩ : Shape).Idx → EReal)
    (m : Fin 256) (o : Fin 8192) : EReal :=
  (lora la pu m o + gemm xd q ws m o) + b (ix1 o)

/-- The result as an array over [256, 8192]. -/
def outArr (xd : (⟨2, ![256, 8192]⟩ : Shape).Idx → EReal) (la : (⟨2, ![256, 32]⟩ : Shape).Idx → EReal)
    (q : (⟨2, ![8192, 8192]⟩ : Shape).Idx → BitVec 32) (ws : (⟨2, ![128, 8192]⟩ : Shape).Idx → EReal)
    (pu : (⟨2, ![8192, 32]⟩ : Shape).Idx → EReal) (b : (⟨1, ![8192]⟩ : Shape).Idx → EReal) :
    (⟨2, ![256, 8192]⟩ : Shape).Idx → EReal :=
  fun j => out xd la q ws pu b (j 0) (j 1)

/-! ## The algebra -/

/-- A scale row against a 0/1 row that has its one at the column's group: the scale of that group.  Every other term
    is x * 0 = 0, also where x is infinite. -/
theorem onehot_scale (w : Fin 128 → EReal) (c : Fin 8192) :
    ∑ g : Fin 128, w g * (if c.val / 64 = g.val then (1 : EReal) else 0) = w (grp c) := by
  rw [Finset.sum_eq_single (grp c)]
  · rw [if_pos (show c.val / 64 = (grp c).val from rfl), mul_one]
  · intro g _ hne
    have : ¬ c.val / 64 = g.val := fun e => hne (Fin.ext e.symm)
    rw [if_neg this, mul_zero]
  · intro h; exact absurd (Finset.mem_univ _) h

/-- The sum over all 8192 columns is the sum of the eight tiles' sums. -/
theorem gemm_eq_tiles (xd : (⟨2, ![256, 8192]⟩ : Shape).Idx → EReal) (q : (⟨2, ![8192, 8192]⟩ : Shape).Idx → BitVec 32)
    (ws : (⟨2, ![128, 8192]⟩ : Shape).Idx → EReal) (m : Fin 256) (o : Fin 8192) :
    gemm xd q ws m o = ∑ s : Fin 8, tile xd q ws m o s := by
  unfold gemm tile
  refine (Cert.LibSumTiles.sum_tiles 8 1024 (fun c : Fin (8 * 1024) => xd (ix2 m c) * wdeq q ws o c)).trans ?_
  refine Finset.sum_congr rfl fun s _ => Finset.sum_congr rfl fun k _ => ?_
  have e : (⟨s.val * 1024 + k.val, Cert.LibSumTiles.tile_lt s k⟩ : Fin (8 * 1024)) = col s k :=
    Fin.ext (by show s.val * 1024 + k.val = 1024 * s.val + k.val; omega)
  rw [e]

/-- A total that starts at l and receives the tiles one after the other. -/
def running (l : EReal) (p : Fin 8 → EReal) : (n : ℕ) → n < 8 → EReal
  | 0, h => l + p ⟨0, h⟩
  | n + 1, h => running l p n (Nat.lt_of_succ_lt h) + p ⟨n + 1, h⟩

/-- After tile n the running total is l plus the tiles 0, …, n. -/
theorem running_eq (l : EReal) (p : Fin 8 → EReal) : ∀ (n : ℕ) (h : n < 8),
    running l p n h = l + ∑ s ∈ Finset.range (n + 1), (if hs : s < 8 then p ⟨s, hs⟩ else 0)
  | 0, h => by rw [running, Finset.sum_range_one, dif_pos h]
  | n + 1, h => by
    rw [running, running_eq l p n, Finset.sum_range_succ _ (n + 1), dif_pos h, add_assoc]

/-- After the last tile it is l plus all eight. -/
theorem running_last (l : EReal) (p : Fin 8 → EReal) : running l p 7 (by omega) = l + ∑ s : Fin 8, p s := by
  rw [running_eq, Finset.sum_range]
  exact congrArg (l + ·) (Finset.sum_congr rfl fun s _ => dif_pos s.isLt)

end Cert.Spec

end
-- ==== Proof.Grid.lean ====
/-
  The grid of the tiled product: 64 points, point t working on the block of 1024 output channels numbered t / 8 and
  on the tile of 1024 input columns numbered t % 8; and what one point adds to the running total, as a function of the
  blocks it is given.
-/
import proofs.«131592_j37452114821821_2_alg».proof.Proof.Gen.KernelIdeal.Frame
import proofs.«131592_j37452114821821_2_alg».proof.Proof.Spec

noncomputable section

namespace Cert.KernelIdeal.Grid

open Cert.KernelIdeal Cert.KernelIdeal.Gen Idealize.ShloMosaic Idealize.ShloMosaic.ValueIdx
open scoped BigOperators

/-- The block of output channels point t works on. -/
def rowOf (t : Fin cfg0.N) : Fin 8 := ⟨t.val / 8, by have := t.isLt; have hN : cfg0.N = 64 := N_0; omega⟩

/-- The tile of input columns point t works on. -/
def tileOf (t : Fin cfg0.N) : Fin 8 := ⟨t.val % 8, Nat.mod_lt _ (by norm_num)⟩

theorem rowOf_val (t : Fin cfg0.N) : (rowOf t).val = t.val / 8 := rfl
theorem tileOf_val (t : Fin cfg0.N) : (tileOf t).val = t.val % 8 := rfl

/-- What a point adds at entry (a, b) of its [256, 1024] block, from the blocks it is given: x0 the codes of its 1024
    channels at its 1024 columns, x1 those channels' 128 group scales, x2 the whole 0/1 group matrix, x3 the whole
    dequantized activation; s is the point's column tile.  The scale of a column is spelt as the product of the scale row
    with the column of the 0/1 matrix. -/
def tileTerm (s : Fin 8) (x0 : Vec Ideal S1024x1024 .i32) (x1 : Vec Ideal S1024x128 .f32) (x2 : Vec Ideal S128x8192 .bf16)
    (x3 : Vec Ideal S256x8192 .bf16) (a : Fin 256) (b : Fin 1024) : EReal :=
  ∑ k : Fin 1024, x3 (ix2 a (Cert.Spec.col s k))
    * (((((x0 (ix2 b k)).toInt : ℝ) : EReal) - Ideal.ofBits .bf16 0x4100#16)
        * ∑ g : Fin 128, x1 (ix2 b g) * x2 (ix2 g (Cert.Spec.col s k)))

end Cert.KernelIdeal.Grid

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.LibMatmulSumT.lean ====
/-
  A matrix product with the right operand transposed, read at an index, at the ideal values.

  For dimension numbers that contract the left operand's axis 1 with the right operand's axis 1, with no batch axis — an
  [M, K] by [N, K] product into [M, N], the product of the left matrix with the transpose of the right — the operand
  indices at result index `j` and contraction index `q` are (j 0, q) and (j 1, q).  So a `tpu.matmul` into a zero
  accumulator is, at every result index, the sum over `k : Fin K` of `l (j 0, k) * r (j 1, k)` on the extended reals.
-/
import Idealize.ShloMosaic.PureOps.Ideal.Laws
import Idealize.ShloMosaic.Lib.ValueIdx

noncomputable section

namespace Cert.LibMatmulSumT

open Idealize.ShloMosaic Idealize.ShloMosaic.ValueIdx

variable {M K N : Nat} (d : DotDims ⟨2, ![M, K]⟩ ⟨2, ![N, K]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Row coordinate of the right operand's index: the result's column. -/
theorem rhsIdx_row (hln : d.lhsNonContracting = [0]) (hrn : d.rhsNonContracting = [0]) (hlb : d.lhsBatch = [])
    (hrb : d.rhsBatch = []) (j : (⟨2, ![M, N]⟩ : Shape).Idx) (q : d.contr.Idx) : (d.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum, re-indexed over `Fin K`. -/
theorem sum_contr (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (j : (⟨2, ![M, N]⟩ : Shape).Idx) :
    ∑ q : d.contr.Idx, l (d.lhsIdx j q) * r (d.rhsIdx j q) = ∑ k : Fin K, l (ix2 (j 0) k) * r (ix2 (j 1) k) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 (j 1) k :=
    funext fun a => Fin.ext (by
      match a with
      | ⟨0, _⟩ => exact rhsIdx_row d hln hrn hlb hrb _ _
      | ⟨1, _⟩ => exact (d.rhsIdx_val_of_single hrc _ _).trans hk)
  exact congrArg₂ (fun a b => l a * r b) el er

/-- A `tpu.matmul` of such a product into the zero splat, at an index: the sum of products over the shared axis. -/
theorem matmul_zero_apply {φ₁ φ₂ : FTy} (hlc : d.lhsContracting = [1]) (hrc : d.rhsContracting = [1])
    (hln : d.lhsNonContracting = [0]) (hrn : d.rhsNonContracting = [0]) (hlb : d.lhsBatch = []) (hrb : d.rhsBatch = [])
    (prec : Option ContractPrecision) (l : FVec Ideal ⟨2, ![M, K]⟩ φ₁) (r : FVec Ideal ⟨2, ![N, K]⟩ φ₂)
    (j : (⟨2, ![M, N]⟩ : Shape).Idx) :
    FloatOps.matmul d prec l r (constant ⟨2, ![M, N]⟩ .f32 0x00000000#32) j = ∑ k : Fin K, l (ix2 (j 0) k) * r (ix2 (j 1) k) :=
  (Ideal.matmul_constant_zero_apply d prec l r j).trans (sum_contr d hlc hrc hln hrn hlb hrb l r j)

end Cert.LibMatmulSumT

end
-- ==== Proof.Body.lean ====
/-
  What each control case of the kernel body leaves in the carried accumulator and in the output block, entry by entry,
  as a function of the blocks the body is given.
-/
import proofs.«131592_j37452114821821_2_alg».proof.Proof.Gen.KernelIdeal.Frame
import proofs.«131592_j37452114821821_2_alg».proof.Proof.Grid
import proofs.«131592_j37452114821821_2_alg».proof.Proof.LibMatmulSum
import proofs.«131592_j37452114821821_2_alg».proof.Proof.LibMatmulSumT
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open scoped BigOperators

namespace Cert.KernelIdeal.Body
open Cert.KernelIdeal Cert.KernelIdeal.Gen Cert.KernelIdeal.Grid

theorem hz : (![0, 0] : Fin 2 → Nat) = fun _ => 0 := funext fun a => by fin_cases a <;> rfl

/-- The second coordinate of grid point t is its column tile, t % 8. -/
theorem coord1 : ∀ t : Fin cfg0.N, ((grid0.coords t) 1).val = t.val % 8 :=
  (by decide +kernel : ∀ t : Fin grid0.N, ((grid0.coords t) 1).val = t.val % 8)

/-! ## What each case stores, as a payload of the blocks it is given (for any float values) -/

section Generic
variable {F : FTy → Type} [FloatOps F]

/-- The 1024 columns of the 0/1 group matrix that the point's column tile names. -/
abbrev cols2 (i : grid0.Coords) (x2 : Vec F S128x8192 .bf16) : Vec F S128x1024 .bf16 :=
  View.ld x2 (Rect.unit (s := S128x8192) (k0_off1 i) S128x1024.size (k0_off1_inb i))

/-- The 1024 columns of the activation that the point's column tile names. -/
abbrev cols3 (i : grid0.Coords) (x3 : Vec F S256x8192 .bf16) : Vec F S256x1024 .bf16 :=
  View.ld x3 (Rect.unit (s := S256x8192) (k0_off2 i) S256x1024.size (k0_off2_inb i))

/-- A middle tile: the accumulator ends at the second payload over the carried contents. -/
theorem soutB_eq (c : Dev nD) (i : grid0.Coords) (arg2 : Memref sig .tc .vmem S1024x1024 .i32) (harg2 : arg2.IsWhole) (arg3 : Memref sig .tc .vmem S1024x128 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x32 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : ¬cond0_1 i)
    (x0 : Vec F S1024x1024 .i32) (x1 : Vec F S1024x128 .f32) (x2 : Vec F S128x8192 .bf16) (x3 : Vec F S256x8192 .bf16) (x4 : Vec F S256x32 .f32) (x5 : Vec F S32x1024 .f32) (x6 : Vec F S1x1024 .f32) (xs0 : Vec F S256x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x0 (cols2 i x2) x1 (cols3 i x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, harg10.read_unread,
    View.ld_unit_zero (S := S1024x1024) hz, View.ld_unit_zero (S := S1024x128) hz, View.ld_unit_zero (S := S256x1024) hz,
    View.ld_unit_zero (S := S256x32) hz, View.ld_unit_zero (S := S32x1024) hz, View.ld_unit_zero (S := S1x1024) hz]

/-- The last tile: the accumulator ends at the same payload. -/
theorem soutC_eq (c : Dev nD) (i : grid0.Coords) (arg2 : Memref sig .tc .vmem S1024x1024 .i32) (harg2 : arg2.IsWhole) (arg3 : Memref sig .tc .vmem S1024x128 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x32 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i)
    (x0 : Vec F S1024x1024 .i32) (x1 : Vec F S1024x128 .f32) (x2 : Vec F S128x8192 .bf16) (x3 : Vec F S256x8192 .bf16) (x4 : Vec F S256x32 .f32) (x5 : Vec F S32x1024 .f32) (x6 : Vec F S1x1024 .f32) (xs0 : Vec F S256x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x0 (cols2 i x2) x1 (cols3 i x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread,
    View.ld_unit_zero (S := S1024x1024) hz, View.ld_unit_zero (S := S1024x128) hz, View.ld_unit_zero (S := S256x1024) hz,
    View.ld_unit_zero (S := S256x32) hz, View.ld_unit_zero (S := S32x1024) hz, View.ld_unit_zero (S := S1x1024) hz]
  rfl

/-- The last tile: the output block ends at the third payload over what the accumulator then holds. -/
theorem outC_eq (c : Dev nD) (i : grid0.Coords) (arg2 : Memref sig .tc .vmem S1024x1024 .i32) (harg2 : arg2.IsWhole) (arg3 : Memref sig .tc .vmem S1024x128 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x32 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i)
    (x0 : Vec F S1024x1024 .i32) (x1 : Vec F S1024x128 .f32) (x2 : Vec F S128x8192 .bf16) (x3 : Vec F S256x8192 .bf16) (x4 : Vec F S256x32 .f32) (x5 : Vec F S32x1024 .f32) (x6 : Vec F S1x1024 .f32) (xs0 : Vec F S256x1024 .f32) :
    out0_C_7 c i arg2 harg2 arg3 harg3 arg4 harg4 arg5 harg5 arg6 harg6 arg7 harg7 arg8 harg8 arg9 harg9 arg10 harg10 hc0 hc1 x0 x1 x2 x3 x4 x5 x6 xs0
      = k0_pay3 (k0_pay2 x0 (cols2 i x2) x1 (cols3 i x3) xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S256x1024) _ hz]
  simp only [View.readAt_eq_ld, harg2.read_unread, harg3.read_unread, harg4.read_unread, harg5.read_unread, harg6.read_unread, harg7.read_unread, harg8.read_unread, harg10.read_unread,
    View.ld_unit_zero (S := S1024x1024) hz, View.ld_unit_zero (S := S1024x128) hz, View.ld_unit_zero (S := S256x1024) hz,
    View.ld_unit_zero (S := S256x32) hz, View.ld_unit_zero (S := S32x1024) hz, View.ld_unit_zero (S := S1x1024) hz]
  rfl

/-- The first tile: the accumulator ends at the second payload over the first payload, which the body stores whole and
    loads back. -/
theorem soutA_eq (c : Dev nD) (i : grid0.Coords) (arg2 : Memref sig .tc .vmem S1024x1024 .i32) (harg2 : arg2.IsWhole) (arg3 : Memref sig .tc .vmem S1024x128 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x32 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : cond0_0 i) (hc1 : ¬cond0_1 i)
    (x0 : Vec F S1024x1024 .i32) (x1 : Vec F S1024x128 .f32) (x2 : Vec F S128x8192 .bf16) (x3 : Vec F S256x8192 .bf16) (x4 : Vec F S256x32 .f32) (x5 : Vec F S32x1024 .f32) (x6 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 x6
      = k0_pay2 x0 (cols2 i x2) x1 (cols3 i x3) (k0_pay1 x4 x5) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S256x1024) hz, View.readCov_unit_zero (S := S256x1024) _ hz]
  simp only [View.readAt_eq_ld, harg2.read_unread, harg3.read_unread, harg4.read_unread, harg5.read_unread, harg6.read_unread, harg7.read_unread, harg8.read_unread, harg10.read_unread,
    View.ld_unit_zero (S := S1024x1024) hz, View.ld_unit_zero (S := S1024x128) hz, View.ld_unit_zero (S := S256x1024) hz,
    View.ld_unit_zero (S := S256x32) hz, View.ld_unit_zero (S := S32x1024) hz, View.ld_unit_zero (S := S1x1024) hz]
  rfl

end Generic

/-! ## The payloads at an entry, over the extended reals -/

/-- A load of 1024 columns at column offset 1024 * s reads column 1024 * s + k at place k. -/
theorem ld_cols {R : Nat} {Val : EltTy → Type} {e : EltTy} (X : (⟨2, ![R, 8192]⟩ : Shape).Idx → Val e) (off : Fin 2 → Nat) (s : Fin 8)
    (hoff : off = ![0, 1024 * s.val]) (inb : ∀ a, off a + (![R, 1024] : Fin 2 → Nat) a ≤ (⟨2, ![R, 8192]⟩ : Shape).size a)
    (g : Fin R) (k : Fin 1024) :
    View.ld X (Rect.unit (s := ⟨2, ![R, 8192]⟩) off ![R, 1024] inb) (ix2 g k) = X (ix2 g (Cert.Spec.col s k)) := by
  subst hoff
  show X _ = X _
  congr 1
  funext a
  apply Fin.ext
  match a with
  | ⟨0, _⟩ => show 0 + 1 * g.val = g.val; omega
  | ⟨1, _⟩ => show 1024 * s.val + 1 * k.val = 1024 * s.val + k.val; omega

/-- The first payload at an entry: the low-rank product. -/
theorem pay1_apply (v30 : Vec Ideal S256x32 .f32) (v33 : Vec Ideal S32x1024 .f32) (a : Fin 256) (b : Fin 1024) :
    k0_pay1 (F := Ideal) v30 v33 (ix2 a b) = ∑ r : Fin 32, v30 (ix2 a r) * v33 (ix2 r b) := by
  unfold k0_pay1
  refine (congrFun (shapeCast_self _ _) _).trans ?_
  refine (Idealize.ShloMosaic.MatmulSum.matmul_zero_apply dot_S256x32_S32x1024_S256x1024_1_0_0_1_n_n rfl rfl rfl rfl rfl rfl none _ _ (ix2 a b)).trans ?_
  refine Finset.sum_congr rfl fun r _ => ?_
  exact congrArg₂ (· * ·) (congrFun (shapeCast_self v30 _) (ix2 a r)) (congrFun (shapeCast_self v33 _) (ix2 r b))

/-- The second payload at an entry: the carried value plus the tile's sum of products, the scale of a column spelt as
    the product of the scale row with the column of the 0/1 matrix. -/
theorem pay2_apply (v5 : Vec Ideal S1024x1024 .i32) (v10 : Vec Ideal S128x1024 .bf16) (v12 : Vec Ideal S1024x128 .f32)
    (v19 : Vec Ideal S256x1024 .bf16) (v22 : Vec Ideal S256x1024 .f32) (a : Fin 256) (b : Fin 1024) :
    k0_pay2 (F := Ideal) v5 v10 v12 v19 v22 (ix2 a b)
      = v22 (ix2 a b) + ∑ k : Fin 1024, v19 (ix2 a k)
          * (((((v5 (ix2 b k)).toInt : ℝ) : EReal) - Ideal.ofBits .bf16 0x4100#16)
              * ∑ g : Fin 128, v12 (ix2 b g) * v10 (ix2 g k)) := by
  unfold k0_pay2
  refine (congrFun (shapeCast_self _ _) _).trans ?_
  refine congrArg (v22 (ix2 a b) + ·) ?_
  refine (Cert.LibMatmulSumT.matmul_zero_apply dot_S256x1024_S1024x1024_S256x1024_1_1_0_0_n_n rfl rfl rfl rfl rfl rfl none _ _ (ix2 a b)).trans ?_
  refine Finset.sum_congr rfl fun k _ => ?_
  refine congrArg₂ (· * ·) (congrFun (shapeCast_self v19 _) (ix2 a k)) ?_
  refine congrArg (fun z : EReal => ((((v5 (ix2 b k)).toInt : ℝ) : EReal) - Ideal.ofBits .bf16 0x4100#16) * z) ?_
  refine (Idealize.ShloMosaic.MatmulSum.matmul_zero_apply dot_S1024x128_S128x1024_S1024x1024_1_0_0_1_n_n rfl rfl rfl rfl rfl rfl none _ _ (ix2 b k)).trans ?_
  refine Finset.sum_congr rfl fun g _ => ?_
  exact congrArg₂ (· * ·) (congrFun (shapeCast_self v12 _) (ix2 b g)) (congrFun (shapeCast_self v10 _) (ix2 g k))

/-- The third payload at an entry: the bias of the entry's column added. -/
theorem pay3_apply (v30 : Vec Ideal S256x1024 .f32) (v31 : Vec Ideal S1x1024 .f32) (a : Fin 256) (b : Fin 1024) :
    k0_pay3 (F := Ideal) v30 v31 (ix2 a b) = v30 (ix2 a b) + v31 (ix2 (0 : Fin 1) b) := by
  unfold k0_pay3
  refine congrArg (v30 (ix2 a b) + ·) ?_
  refine (broadcastTo_1b_ab_apply _ broadcasts_S1x1024_S256x1024 a b).trans ?_
  exact congrFun (shapeCast_self v31 _) (ix2 (0 : Fin 1) b)

/-- The second payload over the point's column slices is the carried value plus the point's tile term. -/
theorem pay2_tile (t : Fin cfg0.N) (x0 : Vec Ideal S1024x1024 .i32) (x1 : Vec Ideal S1024x128 .f32) (x2 : Vec Ideal S128x8192 .bf16)
    (x3 : Vec Ideal S256x8192 .bf16) (acc : Vec Ideal S256x1024 .f32) (a : Fin 256) (b : Fin 1024) :
    k0_pay2 (F := Ideal) x0 (cols2 (grid0.coords t) x2) x1 (cols3 (grid0.coords t) x3) acc (ix2 a b)
      = acc (ix2 a b) + tileTerm (tileOf t) x0 x1 x2 x3 a b := by
  have h1 : k0_off1 (grid0.coords t) = ![0, 1024 * (tileOf t).val] := (k0_off1_eq _).trans (by rw [coord1 t]; rfl)
  have h2 : k0_off2 (grid0.coords t) = ![0, 1024 * (tileOf t).val] := (k0_off2_eq _).trans (by rw [coord1 t]; rfl)
  refine (pay2_apply x0 _ x1 _ acc a b).trans ?_
  refine congrArg (acc (ix2 a b) + ·) ?_
  unfold tileTerm
  refine Finset.sum_congr rfl fun k _ => ?_
  refine congrArg₂ (· * ·) (ld_cols x3 _ (tileOf t) h2 _ a k) ?_
  refine congrArg (fun z : EReal => ((((x0 (ix2 b k)).toInt : ℝ) : EReal) - Ideal.ofBits .bf16 0x4100#16) * z) ?_
  refine Finset.sum_congr rfl fun g _ => ?_
  exact congrArg (fun z : EReal => x1 (ix2 b g) * z) (ld_cols x2 _ (tileOf t) h1 _ g k)

/-! ## The four stored values, entry by entry -/

theorem scratch_A (c : Dev nD) (t : Fin cfg0.N) (arg2 : Memref sig .tc .vmem S1024x1024 .i32) (harg2 : arg2.IsWhole) (arg3 : Memref sig .tc .vmem S1024x128 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x32 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : cond0_0 (grid0.coords t)) (hc1 : ¬cond0_1 (grid0.coords t))
    (x0 : Vec Ideal S1024x1024 .i32) (x1 : Vec Ideal S1024x128 .f32) (x2 : Vec Ideal S128x8192 .bf16) (x3 : Vec Ideal S256x8192 .bf16) (x4 : Vec Ideal S256x32 .f32) (x5 : Vec Ideal S32x1024 .f32) (x6 : Vec Ideal S1x1024 .f32) (a : Fin 256) (b : Fin 1024) :
    sout0_A_0 (F := Ideal) c (grid0.coords t) arg2 harg2 arg3 harg3 arg4 harg4 arg5 harg5 arg6 harg6 arg7 harg7 arg8 harg8 arg9 harg9 arg10 harg10 hc0 hc1 x0 x1 x2 x3 x4 x5 x6 (ix2 a b)
      = (∑ r : Fin 32, x4 (ix2 a r) * x5 (ix2 r b)) + tileTerm (tileOf t) x0 x1 x2 x3 a b := by
  refine (congrFun (soutA_eq c (grid0.coords t) arg2 harg2 arg3 harg3 arg4 harg4 arg5 harg5 arg6 harg6 arg7 harg7 arg8 harg8 arg9 harg9 arg10 harg10 hc0 hc1 x0 x1 x2 x3 x4 x5 x6) (ix2 a b)).trans ?_
  refine (pay2_tile t x0 x1 x2 x3 _ a b).trans ?_
  exact congrArg (· + tileTerm (tileOf t) x0 x1 x2 x3 a b) (pay1_apply x4 x5 a b)

theorem scratch_B (c : Dev nD) (t : Fin cfg0.N) (arg2 : Memref sig .tc .vmem S1024x1024 .i32) (harg2 : arg2.IsWhole) (arg3 : Memref sig .tc .vmem S1024x128 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x32 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 (grid0.coords t)) (hc1 : ¬cond0_1 (grid0.coords t))
    (x0 : Vec Ideal S1024x1024 .i32) (x1 : Vec Ideal S1024x128 .f32) (x2 : Vec Ideal S128x8192 .bf16) (x3 : Vec Ideal S256x8192 .bf16) (x4 : Vec Ideal S256x32 .f32) (x5 : Vec Ideal S32x1024 .f32) (x6 : Vec Ideal S1x1024 .f32) (xs0 : Vec Ideal S256x1024 .f32) (a : Fin 256) (b : Fin 1024) :
    sout0_B_0 (F := Ideal) c (grid0.coords t) arg2 harg2 arg3 harg3 arg4 harg4 arg5 harg5 arg6 harg6 arg7 harg7 arg8 harg8 arg9 harg9 arg10 harg10 hc0 hc1 x0 x1 x2 x3 x4 x5 x6 xs0 (ix2 a b)
      = xs0 (ix2 a b) + tileTerm (tileOf t) x0 x1 x2 x3 a b := by
  refine (congrFun (soutB_eq c (grid0.coords t) arg2 harg2 arg3 harg3 arg4 harg4 arg5 harg5 arg6 harg6 arg7 harg7 arg8 harg8 arg9 harg9 arg10 harg10 hc0 hc1 x0 x1 x2 x3 x4 x5 x6 xs0) (ix2 a b)).trans ?_
  exact pay2_tile t x0 x1 x2 x3 xs0 a b

theorem scratch_C (c : Dev nD) (t : Fin cfg0.N) (arg2 : Memref sig .tc .vmem S1024x1024 .i32) (harg2 : arg2.IsWhole) (arg3 : Memref sig .tc .vmem S1024x128 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x32 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 (grid0.coords t)) (hc1 : cond0_1 (grid0.coords t))
    (x0 : Vec Ideal S1024x1024 .i32) (x1 : Vec Ideal S1024x128 .f32) (x2 : Vec Ideal S128x8192 .bf16) (x3 : Vec Ideal S256x8192 .bf16) (x4 : Vec Ideal S256x32 .f32) (x5 : Vec Ideal S32x1024 .f32) (x6 : Vec Ideal S1x1024 .f32) (xs0 : Vec Ideal S256x1024 .f32) (a : Fin 256) (b : Fin 1024) :
    sout0_C_0 (F := Ideal) c (grid0.coords t) arg2 harg2 arg3 harg3 arg4 harg4 arg5 harg5 arg6 harg6 arg7 harg7 arg8 harg8 arg9 harg9 arg10 harg10 hc0 hc1 x0 x1 x2 x3 x4 x5 x6 xs0 (ix2 a b)
      = xs0 (ix2 a b) + tileTerm (tileOf t) x0 x1 x2 x3 a b := by
  refine (congrFun (soutC_eq c (grid0.coords t) arg2 harg2 arg3 harg3 arg4 harg4 arg5 harg5 arg6 harg6 arg7 harg7 arg8 harg8 arg9 harg9 arg10 harg10 hc0 hc1 x0 x1 x2 x3 x4 x5 x6 xs0) (ix2 a b)).trans ?_
  exact pay2_tile t x0 x1 x2 x3 xs0 a b

theorem out_C (c : Dev nD) (t : Fin cfg0.N) (arg2 : Memref sig .tc .vmem S1024x1024 .i32) (harg2 : arg2.IsWhole) (arg3 : Memref sig .tc .vmem S1024x128 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x32 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 (grid0.coords t)) (hc1 : cond0_1 (grid0.coords t))
    (x0 : Vec Ideal S1024x1024 .i32) (x1 : Vec Ideal S1024x128 .f32) (x2 : Vec Ideal S128x8192 .bf16) (x3 : Vec Ideal S256x8192 .bf16) (x4 : Vec Ideal S256x32 .f32) (x5 : Vec Ideal S32x1024 .f32) (x6 : Vec Ideal S1x1024 .f32) (xs0 : Vec Ideal S256x1024 .f32) (a : Fin 256) (b : Fin 1024) :
    out0_C_7 (F := Ideal) c (grid0.coords t) arg2 harg2 arg3 harg3 arg4 harg4 arg5 harg5 arg6 harg6 arg7 harg7 arg8 harg8 arg9 harg9 arg10 harg10 hc0 hc1 x0 x1 x2 x3 x4 x5 x6 xs0 (ix2 a b)
      = (xs0 (ix2 a b) + tileTerm (tileOf t) x0 x1 x2 x3 a b) + x6 (ix2 (0 : Fin 1) b) := by
  refine (congrFun (outC_eq c (grid0.coords t) arg2 harg2 arg3 harg3 arg4 harg4 arg5 harg5 arg6 harg6 arg7 harg7 arg8 harg8 arg9 harg9 arg10 harg10 hc0 hc1 x0 x1 x2 x3 x4 x5 x6 xs0) (ix2 a b)).trans ?_
  refine (pay3_apply _ x6 a b).trans ?_
  exact congrArg (· + x6 (ix2 (0 : Fin 1) b)) (pay2_tile t x0 x1 x2 x3 xs0 a b)

end Cert.KernelIdeal.Body

end
-- ==== Proof.LibFloorDivWords.lean ====
import Mathlib.Data.BitVec
import Idealize.ShloMosaic.PureOps.Ideal

/-!
# Floor division, remainder and index wrap on nonnegative 32-bit words

jnp's `floor_divide` of `x` by `d` on signed 32-bit words is computed from the truncated quotient: one is
subtracted when the signs of `x` and `d` differ and the truncated remainder is not zero (`floorDivW`).  jnp's
`remainder`, which takes the divisor's sign, is the truncated remainder by the divisor (one in place of a zero
divisor), to which the divisor is added when the remainder is not zero and its sign differs from the divisor's
(`pyRemW`).  A negative index into an axis of length `1024` is wrapped by adding `1024` (`wrapW`).  For a word
`x` whose top bit is clear and the divisor `1024` none of the corrections applies: the floor quotient is the
unsigned quotient `x / 1024` (`floorDivW_1024`), the remainder is the unsigned remainder `x % 1024`
(`pyRemW_1024`), and the wrap is the identity (`wrapW_of_nonneg`).  With the divisor `1` the floor quotient is
`x` itself, for every word (`floorDivW_one`).  A word below `2 ^ 31` has its top bit clear and reads signed as its
natural value (`msb_false_of_lt`, `toInt_of_lt`).
-/

namespace Cert.ReferenceIdeal.Pairs

open Idealize.ShloMosaic

/-- The sign of a word: `0`, `-1` or `1`. -/
def sgnW (x : BitVec 32) : BitVec 32 := if x = 0 then 0 else if x.msb then -1 else 1

/-- Floor division from the truncated quotient and remainder. -/
def floorDivW (x d : BitVec 32) : BitVec 32 :=
  Scalar.select
    (IntOp.andi (IntOp.cmpi .ne (sgnW x) (sgnW d)) (IntOp.cmpi .ne (IntOp.remsi .host x d) 0#32))
    (IntOp.subi (IntOp.divsi .host x d) 1#32) (IntOp.divsi .host x d)

/-- The divisor with one in place of zero. -/
def safeDivW (d : BitVec 32) : BitVec 32 := Scalar.select (IntOp.cmpi .eq d 0#32) 1#32 d

/-- The remainder with the divisor's sign, from the truncated remainder. -/
def pyRemW (x d : BitVec 32) : BitVec 32 :=
  Scalar.select
    (IntOp.andi
      (IntOp.cmpi .ne (IntOp.cmpi .slt (IntOp.remsi .host x (safeDivW d)) 0#32) (IntOp.cmpi .slt (safeDivW d) 0#32))
      (IntOp.cmpi .ne (IntOp.remsi .host x (safeDivW d)) 0#32))
    (IntOp.addi (IntOp.remsi .host x (safeDivW d)) (safeDivW d)) (IntOp.remsi .host x (safeDivW d))

/-- A negative index wrapped by the axis length `1024`. -/
def wrapW (x : BitVec 32) : BitVec 32 := Scalar.select (IntOp.cmpi .slt x 0#32) (IntOp.addi x 1024#32) x

theorem msb_false_of_lt (x : BitVec 32) (h : x.toNat < 2 ^ 31) : x.msb = false :=
  BitVec.msb_eq_false_iff_two_mul_lt.2 (by omega)

theorem select_zero {α : Type} (a b : α) : Scalar.select 0#1 a b = b := by
  unfold Scalar.select; rw [if_neg (by decide)]

theorem andi_zero_left (c : BitVec 1) : IntOp.andi 0#1 c = 0#1 := by
  unfold IntOp.andi; exact BitVec.zero_and

theorem andi_zero_right (c : BitVec 1) : IntOp.andi c 0#1 = 0#1 := by
  unfold IntOp.andi; exact BitVec.and_zero

theorem not_corner_1024 (x : BitVec 32) : ¬ IntOp.SDivCorner x 1024#32 := by
  rintro (h | ⟨_, h⟩) <;> exact absurd h (by decide)

/-- The truncated quotient of a nonnegative word by `1024` is the unsigned quotient. -/
theorem divsi_1024 (x : BitVec 32) (hx : x.msb = false) : IntOp.divsi .host x 1024#32 = x / 1024#32 := by
  unfold IntOp.divsi
  rw [if_neg (not_corner_1024 x), BitVec.sdiv_eq, hx, show (1024#32 : BitVec 32).msb = false from by decide]
  rfl

/-- The truncated remainder of a nonnegative word by `1024` is the unsigned remainder. -/
theorem remsi_1024 (x : BitVec 32) (hx : x.msb = false) : IntOp.remsi .host x 1024#32 = x % 1024#32 := by
  unfold IntOp.remsi
  rw [if_neg (not_corner_1024 x), BitVec.srem_eq, hx, show (1024#32 : BitVec 32).msb = false from by decide]

theorem toNat_udiv_1024 (x : BitVec 32) : (x / 1024#32).toNat = x.toNat / 1024 := by
  rw [BitVec.toNat_udiv]; rfl

theorem toNat_umod_1024 (x : BitVec 32) : (x % 1024#32).toNat = x.toNat % 1024 := by
  rw [BitVec.toNat_umod]; rfl

/-- The sign of a nonzero word with a clear top bit is one. -/
theorem sgnW_pos (x : BitVec 32) (hx : x.msb = false) (h0 : x ≠ 0) : sgnW x = 1 := by
  unfold sgnW; rw [if_neg h0, hx]; rfl

/-- Floor division of a nonnegative word by `1024`. -/
theorem floorDivW_1024 (x : BitVec 32) (hx : x.msb = false) : floorDivW x 1024#32 = x / 1024#32 := by
  unfold floorDivW
  rw [divsi_1024 x hx, remsi_1024 x hx]
  by_cases h0 : x = 0
  · subst h0
    rw [show IntOp.cmpi .ne ((0 : BitVec 32) % 1024#32) 0#32 = 0#1 from by decide, andi_zero_right, select_zero]
  · rw [sgnW_pos x hx h0, show IntOp.cmpi .ne (1 : BitVec 32) (sgnW 1024#32) = 0#1 from by decide, andi_zero_left,
      select_zero]

theorem toNat_floorDivW_1024 (x : BitVec 32) (hx : x.toNat < 2 ^ 31) : (floorDivW x 1024#32).toNat = x.toNat / 1024 := by
  rw [floorDivW_1024 x (msb_false_of_lt x hx), toNat_udiv_1024]

/-- Floor division by one is the identity. -/
theorem floorDivW_one (x : BitVec 32) : floorDivW x 1#32 = x := by
  unfold floorDivW
  have hd : IntOp.divsi .host x 1#32 = x := by
    unfold IntOp.divsi
    rw [if_neg (by rintro (h | ⟨_, h⟩) <;> exact absurd h (by decide))]; exact BitVec.sdiv_one
  have hr : IntOp.remsi .host x 1#32 = 0#32 := by
    unfold IntOp.remsi
    rw [if_neg (by rintro (h | ⟨_, h⟩) <;> exact absurd h (by decide))]; exact BitVec.srem_one
  rw [hd, hr, show IntOp.cmpi .ne (0#32 : BitVec 32) 0#32 = 0#1 from by decide, andi_zero_right, select_zero]

theorem safeDivW_1024 : safeDivW 1024#32 = 1024#32 := by decide

/-- The remainder of a nonnegative word by `1024`. -/
theorem pyRemW_1024 (x : BitVec 32) (hx : x.msb = false) : pyRemW x 1024#32 = x % 1024#32 := by
  unfold pyRemW
  rw [safeDivW_1024, remsi_1024 x hx]
  have hr : (x % 1024#32).msb = false := by
    apply msb_false_of_lt
    rw [toNat_umod_1024]
    have := Nat.mod_lt x.toNat (show 0 < 1024 by norm_num)
    omega
  have hs : IntOp.cmpi .slt (x % 1024#32) 0#32 = 0#1 := by
    show BitVec.ofBool ((x % 1024#32).slt 0#32) = 0#1
    rw [BitVec.slt_zero_eq_msb, hr]; rfl
  rw [hs, show IntOp.cmpi .ne (0#1 : BitVec 1) (IntOp.cmpi .slt (1024#32 : BitVec 32) 0#32) = 0#1 from by decide,
    andi_zero_left, select_zero]

theorem toNat_pyRemW_1024 (x : BitVec 32) (hx : x.toNat < 2 ^ 31) : (pyRemW x 1024#32).toNat = x.toNat % 1024 := by
  rw [pyRemW_1024 x (msb_false_of_lt x hx), toNat_umod_1024]

/-- The wrap of a nonnegative word is the word itself. -/
theorem wrapW_of_nonneg (x : BitVec 32) (hx : x.msb = false) : wrapW x = x := by
  unfold wrapW
  have hs : IntOp.cmpi .slt x 0#32 = 0#1 := by
    show BitVec.ofBool (x.slt 0#32) = 0#1
    rw [BitVec.slt_zero_eq_msb, hx]; rfl
  rw [hs, select_zero]

/-- A word below `2 ^ 31` reads signed as its natural value. -/
theorem toInt_of_lt (x : BitVec 32) (hx : x.toNat < 2 ^ 31) : x.toInt = (x.toNat : ℤ) :=
  BitVec.toInt_eq_toNat_of_lt (by omega)

end Cert.ReferenceIdeal.Pairs
-- ==== Proof.Blocks.lean ====
/-
  The blocks the pipeline hands the body at a grid point, entry by entry, as functions of the program's arguments.
-/
import proofs.«131592_j37452114821821_2_alg».proof.Proof.Gen.KernelIdeal.Frame
import proofs.«131592_j37452114821821_2_alg».proof.Proof.Gen.ReferenceIdeal.Read
import proofs.«131592_j37452114821821_2_alg».proof.Proof.Grid
import proofs.«131592_j37452114821821_2_alg».proof.Proof.LibFloorDivWords
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open scoped BigOperators

namespace Cert.KernelIdeal.Blocks
open Cert.KernelIdeal Cert.KernelIdeal.Gen Cert.KernelIdeal.Grid

variable (m : (ℓ : Loc nD τ sig) → Buf (Elt Ideal) ℓ)

/-- the dequantized activation and the activation times the down projection, as the reference's own stage functions -/
abbrev XD := Cert.ReferenceIdeal.Read.val_main_v21 (F := Ideal)
abbrev LA := Cert.ReferenceIdeal.Read.val_main_v1 (F := Ideal)

/-! ## The block indices, decided once over the grid -/

theorem idx0 : ∀ t : Fin cfg0.N, win0_0.index t 0 = t.val / 8 ∧ win0_0.index t 1 = t.val % 8 :=
  (by decide +kernel : ∀ t : Fin grid0.N, _)

theorem blk0 (c : Dev nD) (t : Fin cfg0.N) (a b : Fin 1024) :
    (iblk m c 0 t : Vec Ideal S1024x1024 .i32) (ix2 a b)
      = m ((c : Thread nD τ).loc main_arg1) (ix2 (Cert.Spec.col (rowOf t) a) (Cert.Spec.col (tileOf t) b)) := by
  have hi := idx0 t
  unfold iblk
  rw [View.read_apply]
  show V m c main_arg1 _ = _
  rw [V_main_arg1]
  congr 1
  funext d
  apply Fin.ext
  match d with
  | ⟨0, _⟩ =>
    show win0_0.index t 0 * 1024 + 1 * a.val = 1024 * (t.val / 8) + a.val
    rw [hi.1]; omega
  | ⟨1, _⟩ =>
    show win0_0.index t 1 * 1024 + 1 * b.val = 1024 * (t.val % 8) + b.val
    rw [hi.2]; omega

/-- The up projection as the region finds it: the argument transposed. -/
theorem V_v2 (c : Dev nD) : (V m c main_v2 : S32x8192.Idx → EReal)
    = transpose S32x8192 [1, 0] (m ((c : Thread nD τ).loc main_arg5)) transposes_S8192x32_S32x8192_1_0 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

/-- The group scales as the region finds them: the argument transposed. -/
theorem V_v31 (c : Dev nD) : (V m c main_v31 : S8192x128.Idx → EReal)
    = transpose S8192x128 [1, 0] (m ((c : Thread nD τ).loc main_arg2)) transposes_S128x8192_S8192x128_1_0 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

/-- The bias as the region finds it: the argument as one row. -/
theorem V_v32 (c : Dev nD) : (V m c main_v32 : S1x8192.Idx → EReal)
    = shapeCast S1x8192 (m ((c : Thread nD τ).loc main_arg6)) shapeCasts_S8192_S1x8192 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem idx1 : ∀ t : Fin cfg0.N, win0_1.index t 0 = t.val / 8 ∧ win0_1.index t 1 = 0 :=
  (by decide +kernel : ∀ t : Fin grid0.N, _)
theorem idx5 : ∀ t : Fin cfg0.N, win0_5.index t 0 = 0 ∧ win0_5.index t 1 = t.val / 8 :=
  (by decide +kernel : ∀ t : Fin grid0.N, _)
theorem idx6 : ∀ t : Fin cfg0.N, win0_6.index t 0 = 0 ∧ win0_6.index t 1 = t.val / 8 :=
  (by decide +kernel : ∀ t : Fin grid0.N, _)

theorem blk5 (c : Dev nD) (t : Fin cfg0.N) (r : Fin 32) (b : Fin 1024) :
    (iblk m c 5 t : Vec Ideal S32x1024 .f32) (ix2 r b)
      = m ((c : Thread nD τ).loc main_arg5) (ix2 (Cert.Spec.col (rowOf t) b) r) := by
  have hi := idx5 t
  unfold iblk
  rw [View.read_apply]
  show V m c main_v2 _ = _
  rw [V_v2]
  refine Eq.trans (congrArg _ (?_ : _ = ix2 r (Cert.Spec.col (rowOf t) b))) (transpose_ix2_apply _ _ _ _)
  funext d
  apply Fin.ext
  match d with
  | ⟨0, _⟩ =>
    show win0_5.index t 0 * 32 + 1 * r.val = r.val
    rw [hi.1]; omega
  | ⟨1, _⟩ =>
    show win0_5.index t 1 * 1024 + 1 * b.val = 1024 * (t.val / 8) + b.val
    rw [hi.2]; omega

theorem blk6 (c : Dev nD) (t : Fin cfg0.N) (b : Fin 1024) :
    (iblk m c 6 t : Vec Ideal S1x1024 .f32) (ix2 (0 : Fin 1) b)
      = m ((c : Thread nD τ).loc main_arg6) (ix1 (Cert.Spec.col (rowOf t) b)) := by
  have hi := idx6 t
  unfold iblk
  rw [View.read_apply]
  show V m c main_v32 _ = _
  rw [V_v32]
  refine Eq.trans (congrArg _ (?_ : _ = ix2 (0 : Fin 1) (Cert.Spec.col (rowOf t) b))) (shapeCast_a_1a_apply _ _ _ _)
  funext d
  apply Fin.ext
  match d with
  | ⟨0, _⟩ =>
    show win0_6.index t 0 * 1 + 1 * 0 = 0
    rw [hi.1]
  | ⟨1, _⟩ =>
    show win0_6.index t 1 * 1024 + 1 * b.val = 1024 * (t.val / 8) + b.val
    rw [hi.2]; omega

theorem blk1 (c : Dev nD) (t : Fin cfg0.N) (a : Fin 1024) (g : Fin 128) :
    (iblk m c 1 t : Vec Ideal S1024x128 .f32) (ix2 a g)
      = m ((c : Thread nD τ).loc main_arg2) (ix2 g (Cert.Spec.col (rowOf t) a)) := by
  have hi := idx1 t
  unfold iblk
  rw [View.read_apply]
  show V m c main_v31 _ = _
  rw [V_v31]
  refine Eq.trans (congrArg _ (?_ : _ = ix2 (Cert.Spec.col (rowOf t) a) g)) (transpose_ix2_apply _ _ _ _)
  funext d
  apply Fin.ext
  match d with
  | ⟨0, _⟩ =>
    show win0_1.index t 0 * 1024 + 1 * a.val = 1024 * (t.val / 8) + a.val
    rw [hi.1]; omega
  | ⟨1, _⟩ =>
    show win0_1.index t 1 * 128 + 1 * g.val = g.val
    rw [hi.2]; omega

/-! ## The two stage arrays shared with the reference -/

/-- The activation times the down projection as the region finds it: the reference's own stage function. -/
theorem V_v1 (c : Dev nD) : (V m c main_v1 : S256x32.Idx → EReal)
    = LA (m ((c : Thread nD τ).loc main_arg0)) (m ((c : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem idx4 : ∀ t : Fin cfg0.N, win0_4.index t 0 = 0 ∧ win0_4.index t 1 = 0 :=
  (by decide +kernel : ∀ t : Fin grid0.N, _)

theorem blk4 (c : Dev nD) (t : Fin cfg0.N) (a : Fin 256) (r : Fin 32) :
    (iblk m c 4 t : Vec Ideal S256x32 .f32) (ix2 a r)
      = LA (m ((c : Thread nD τ).loc main_arg0)) (m ((c : Thread nD τ).loc main_arg4)) (ix2 a r) := by
  have hi := idx4 t
  unfold iblk
  rw [View.read_apply]
  show V m c main_v1 _ = _
  rw [V_v1]
  refine congrArg _ ?_
  funext d
  apply Fin.ext
  match d with
  | ⟨0, _⟩ =>
    show win0_4.index t 0 * 256 + 1 * a.val = a.val
    rw [hi.1]; omega
  | ⟨1, _⟩ =>
    show win0_4.index t 1 * 32 + 1 * r.val = r.val
    rw [hi.2]; omega

/-- The dequantized activation as the region finds it: operation for operation the reference's own stage function
    (the last change of float format is the identity on extended reals). -/
theorem V_v21 (c : Dev nD) : (V m c main_v21 : S256x8192.Idx → EReal)
    = XD (m ((c : Thread nD τ).loc main_arg0)) (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem idx3 : ∀ t : Fin cfg0.N, win0_3.index t 0 = 0 ∧ win0_3.index t 1 = 0 :=
  (by decide +kernel : ∀ t : Fin grid0.N, _)

theorem blk3 (c : Dev nD) (t : Fin cfg0.N) (a : Fin 256) (cc : Fin 8192) :
    (iblk m c 3 t : Vec Ideal S256x8192 .bf16) (ix2 a cc)
      = XD (m ((c : Thread nD τ).loc main_arg0)) (m ((c : Thread nD τ).loc main_arg3)) (ix2 a cc) := by
  have hi := idx3 t
  unfold iblk
  rw [View.read_apply]
  show V m c main_v21 _ = _
  rw [V_v21]
  refine congrArg _ ?_
  funext d
  apply Fin.ext
  match d with
  | ⟨0, _⟩ =>
    show win0_3.index t 0 * 256 + 1 * a.val = a.val
    rw [hi.1]; omega
  | ⟨1, _⟩ =>
    show win0_3.index t 1 * 8192 + 1 * cc.val = cc.val
    rw [hi.2]; omega

/-! ## Floor division of a small nonnegative word by 64

The floor quotient of signed words is computed from the truncated quotient, corrected by one when the signs differ and
the remainder is not zero.  For a word with a clear top bit and the divisor 64 no correction applies, so the floor
quotient is the unsigned quotient. -/

open Cert.ReferenceIdeal.Pairs (sgnW floorDivW msb_false_of_lt sgnW_pos andi_zero_left andi_zero_right)

theorem not_corner_64 (x : BitVec 32) : ¬ IntOp.SDivCorner x 64#32 := by
  rintro (h | ⟨_, h⟩) <;> exact absurd h (by decide)

/-- The truncated quotient of a nonnegative word by 64 is the unsigned quotient. -/
theorem divsi_64 (x : BitVec 32) (hx : x.msb = false) : IntOp.divsi .host x 64#32 = x / 64#32 := by
  unfold IntOp.divsi
  rw [if_neg (not_corner_64 x), BitVec.sdiv_eq, hx, show (64#32 : BitVec 32).msb = false from by decide]
  rfl

/-- The truncated remainder of a nonnegative word by 64 is the unsigned remainder. -/
theorem remsi_64 (x : BitVec 32) (hx : x.msb = false) : IntOp.remsi .host x 64#32 = x % 64#32 := by
  unfold IntOp.remsi
  rw [if_neg (not_corner_64 x), BitVec.srem_eq, hx, show (64#32 : BitVec 32).msb = false from by decide]

theorem toNat_udiv_64 (x : BitVec 32) : (x / 64#32).toNat = x.toNat / 64 := by
  rw [BitVec.toNat_udiv]; rfl

/-- Floor division of a nonnegative word by 64. -/
theorem floorDivW_64 (x : BitVec 32) (hx : x.msb = false) : floorDivW x 64#32 = x / 64#32 := by
  unfold floorDivW
  rw [divsi_64 x hx, remsi_64 x hx]
  by_cases h0 : x = 0
  · subst h0
    rw [show IntOp.cmpi .ne ((0 : BitVec 32) % 64#32) 0#32 = 0#1 from by decide, andi_zero_right,
      Cert.ReferenceIdeal.Pairs.select_zero]
  · rw [sgnW_pos x hx h0, show IntOp.cmpi .ne (1 : BitVec 32) (sgnW 64#32) = 0#1 from by decide, andi_zero_left,
      Cert.ReferenceIdeal.Pairs.select_zero]

/-- A number below 2 ^ 32 written as a 32-bit word reads back as itself. -/
theorem toNat_ofNat_lt (n : ℕ) (h : n < 2 ^ 32) : (BitVec.ofNat 32 n).toNat = n := by
  rw [BitVec.toNat_ofNat]; exact Nat.mod_eq_of_lt h

/-- Two equal words compare equal: the bit 1. -/
theorem cmpi_eq_self (x : BitVec 32) : IntOp.cmpi .eq x x = 1#1 := by
  unfold IntOp.cmpi; simp

/-- Two different words compare unequal: the bit 0. -/
theorem cmpi_eq_of_ne (x y : BitVec 32) (h : x ≠ y) : IntOp.cmpi .eq x y = 0#1 := by
  have hb : (x == y) = false := beq_eq_false_iff_ne.mpr h
  unfold IntOp.cmpi
  show BitVec.ofBool (x == y) = 0#1
  rw [hb]; rfl

/-- The entry of the 0/1 group matrix at row g and column cc, as the words compute it: the column's number divided by 64
    (floor division of 32-bit words), compared with the row's number, the bit read as a number.  It is 1 when the
    column lies in group g and 0 otherwise. -/
theorem onehot_word (g : Fin 128) (cc : Fin 8192) :
    FloatOps.uitofp (F := Ideal) .bf16
        (IntOp.cmpi .eq (floorDivW (BitVec.ofNat 32 cc.val) 64#32) (BitVec.ofNat 32 g.val))
      = if cc.val / 64 = g.val then (1 : EReal) else 0 := by
  have hc : (BitVec.ofNat 32 cc.val).toNat = cc.val := toNat_ofNat_lt _ (by have := cc.isLt; omega)
  have hg : (BitVec.ofNat 32 g.val).toNat = g.val := toNat_ofNat_lt _ (by have := g.isLt; omega)
  have hx : (BitVec.ofNat 32 cc.val).msb = false := msb_false_of_lt _ (by rw [hc]; have := cc.isLt; omega)
  rw [floorDivW_64 _ hx]
  by_cases h : cc.val / 64 = g.val
  · have e : BitVec.ofNat 32 cc.val / 64#32 = BitVec.ofNat 32 g.val :=
      BitVec.eq_of_toNat_eq (by rw [toNat_udiv_64, hc, hg, h])
    rw [e, if_pos h, cmpi_eq_self]
    show (((1#1 : BitVec 1).toNat : ℝ) : EReal) = 1
    simp
  · have ne : BitVec.ofNat 32 cc.val / 64#32 ≠ BitVec.ofNat 32 g.val := fun e => h (by
      have := congrArg BitVec.toNat e; rwa [toNat_udiv_64, hc, hg] at this)
    rw [if_neg h, cmpi_eq_of_ne _ _ ne]
    show (((0#1 : BitVec 1).toNat : ℝ) : EReal) = 0
    simp

/-! ## The 0/1 group matrix, as the operations before the region build it -/

/-- The column numbers 0, …, 8191 as one row of 32-bit words. -/
def colRow : IVec S1x8192 32 := broadcastInDim S1x8192 ![1] bcast_S8192_S1x8192_1 (iotaInDim S8192 32 0)

theorem colRow_apply (u : Fin 1) (cc : Fin 8192) : colRow (ix2 u cc) = BitVec.ofNat 32 cc.val := by
  unfold colRow
  exact (broadcastInDim_apply _ bcast_S8192_S1x8192_1 _ (ix2 u cc) (ix1 cc) (fun a => match a with
    | ⟨0, _⟩ => by show cc.val = if (8192 : Nat) = 1 then 0 else cc.val; rw [if_neg (by decide)])).trans rfl

/-- One word repeated along a row. -/
def wordRow (w : BitVec 32) : IVec S1x8192 32 := broadcastInDim S1x8192 ![] bcast_S_S1x8192 (constantI S_ 32 w)

/-- Each column's number divided by 64, by the floor division of signed words: the truncated quotient, less one where
    the signs differ and the remainder is not zero. -/
def quotRow : IVec S1x8192 32 :=
  select
    (andi (cmpi .ne (signi colRow) (broadcastInDim S1x8192 ![] bcast_S_S1x8192 (signi (constantI S_ 32 64#32))))
      (cmpi .ne (Host.remsi colRow (wordRow 64#32)) (wordRow 0#32)))
    (subi (Host.divsi colRow (wordRow 64#32)) (wordRow 1#32))
    (Host.divsi colRow (wordRow 64#32))

theorem quotRow_apply (u : Fin 1) (cc : Fin 8192) :
    quotRow (ix2 u cc) = floorDivW (BitVec.ofNat 32 cc.val) 64#32 := by
  have e := colRow_apply u cc
  show Scalar.select
      (IntOp.andi (IntOp.cmpi .ne (sgnW (colRow (ix2 u cc))) (sgnW 64#32))
        (IntOp.cmpi .ne (IntOp.remsi .host (colRow (ix2 u cc)) 64#32) 0#32))
      (IntOp.subi (IntOp.divsi .host (colRow (ix2 u cc)) 64#32) 1#32)
      (IntOp.divsi .host (colRow (ix2 u cc)) 64#32) = _
  rw [e]; rfl

/-- The matrix: entry (g, cc) compares column cc's quotient with the row number g and reads the bit as a number. -/
def groupMat : FVec Ideal S128x8192 .bf16 :=
  uitofp .bf16 (cmpi .eq (broadcastInDim S128x8192 ![0, 1] bcast_S1x8192_S128x8192_0_1 quotRow)
    (broadcastInDim S128x8192 ![0, 1] bcast_S128x1_S128x8192_0_1
      (broadcastInDim S128x1 ![0] bcast_S128_S128x1_0 (iotaInDim S128 32 0))))

theorem groupMat_apply (g : Fin 128) (cc : Fin 8192) :
    groupMat (ix2 g cc) = if cc.val / 64 = g.val then (1 : EReal) else 0 := by
  have e1 : broadcastInDim S128x8192 ![0, 1] bcast_S1x8192_S128x8192_0_1 quotRow (ix2 g cc)
      = floorDivW (BitVec.ofNat 32 cc.val) 64#32 :=
    (broadcastInDim_apply _ bcast_S1x8192_S128x8192_0_1 quotRow (ix2 g cc) (ix2 (0 : Fin 1) cc) (fun a => match a with
      | ⟨0, _⟩ => by show 0 = if (1 : Nat) = 1 then 0 else g.val; rw [if_pos rfl]
      | ⟨1, _⟩ => by show cc.val = if (8192 : Nat) = 1 then 0 else cc.val; rw [if_neg (by decide)])).trans
      (quotRow_apply 0 cc)
  have e2 : broadcastInDim S128x8192 ![0, 1] bcast_S128x1_S128x8192_0_1
        (broadcastInDim S128x1 ![0] bcast_S128_S128x1_0 (iotaInDim S128 32 0)) (ix2 g cc)
      = BitVec.ofNat 32 g.val :=
    (broadcastInDim_apply _ bcast_S128x1_S128x8192_0_1 _ (ix2 g cc) (ix2 g (0 : Fin 1)) (fun a => match a with
      | ⟨0, _⟩ => by show g.val = if (128 : Nat) = 1 then 0 else g.val; rw [if_neg (by decide)]
      | ⟨1, _⟩ => by show 0 = if (1 : Nat) = 1 then 0 else cc.val; rw [if_pos rfl])).trans
      ((broadcastInDim_apply _ bcast_S128_S128x1_0 _ (ix2 g (0 : Fin 1)) (ix1 g) (fun a => match a with
        | ⟨0, _⟩ => by show g.val = if (128 : Nat) = 1 then 0 else g.val; rw [if_neg (by decide)])).trans rfl)
  refine Eq.trans ?_ (onehot_word g cc)
  exact congrArg (FloatOps.uitofp (F := Ideal) .bf16) (congrArg₂ (IntOp.cmpi .eq) e1 e2)

/-- The group matrix as the region finds it. -/
theorem V_v30 (c : Dev nD) : (V m c main_v30 : S128x8192.Idx → EReal) = groupMat := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem idx2 : ∀ t : Fin cfg0.N, win0_2.index t 0 = 0 ∧ win0_2.index t 1 = 0 :=
  (by decide +kernel : ∀ t : Fin grid0.N, _)

theorem blk2 (c : Dev nD) (t : Fin cfg0.N) (g : Fin 128) (cc : Fin 8192) :
    (iblk m c 2 t : Vec Ideal S128x8192 .bf16) (ix2 g cc) = if cc.val / 64 = g.val then (1 : EReal) else 0 := by
  have hi := idx2 t
  unfold iblk
  rw [View.read_apply]
  show V m c main_v30 _ = _
  rw [V_v30]
  refine Eq.trans (congrArg _ (?_ : _ = ix2 g cc)) (groupMat_apply g cc)
  funext d
  apply Fin.ext
  match d with
  | ⟨0, _⟩ =>
    show win0_2.index t 0 * 128 + 1 * g.val = g.val
    rw [hi.1]; omega
  | ⟨1, _⟩ =>
    show win0_2.index t 1 * 8192 + 1 * cc.val = cc.val
    rw [hi.2]; omega

end Cert.KernelIdeal.Blocks

end
-- ==== Proof.Accum.lean ====
/-
  The carried accumulator, point by point.

  At the first column tile of a block of output channels the body stores the low-rank correction and adds the first
  tile's product; at every later tile it adds that tile's product to what the point before left.  So after the point
  that works on column tile s the accumulator holds, at row a and channel 1024 * (block) + b, the correction plus the
  products of the tiles 0, …, s — by induction on the point, never by enumerating the grid.  The scale of a column,
  which the body spells as a scale row times a column of the 0/1 group matrix, is the scale of the column's group.
-/
import proofs.«131592_j37452114821821_2_alg».proof.Proof.Body
import proofs.«131592_j37452114821821_2_alg».proof.Proof.Blocks

noncomputable section

open Idealize.ShloMosaic Idealize.ShloMosaic.TcCoe Idealize.SL.Sem Idealize.ShloMosaic.ValueIdx
open scoped BigOperators

namespace Cert.KernelIdeal.Accum

open Cert.KernelIdeal Cert.KernelIdeal.Gen Cert.KernelIdeal.Grid Cert.KernelIdeal.Blocks

variable (m : (ℓ : Loc nD τ sig) → Buf (Elt Ideal) ℓ)

/-! ## The argument arrays, as the layer's function takes them -/

/-- The dequantized activation. -/
abbrev xd (c : Dev nD) : (⟨2, ![256, 8192]⟩ : Shape).Idx → EReal :=
  XD (m ((c : Thread nD τ).loc main_arg0)) (m ((c : Thread nD τ).loc main_arg3))
/-- The activation times the down projection. -/
abbrev la (c : Dev nD) : (⟨2, ![256, 32]⟩ : Shape).Idx → EReal :=
  LA (m ((c : Thread nD τ).loc main_arg0)) (m ((c : Thread nD τ).loc main_arg4))
/-- The weight codes. -/
abbrev qq (c : Dev nD) : (⟨2, ![8192, 8192]⟩ : Shape).Idx → BitVec 32 := m ((c : Thread nD τ).loc main_arg1)
/-- The group scales. -/
abbrev ws (c : Dev nD) : (⟨2, ![128, 8192]⟩ : Shape).Idx → EReal := m ((c : Thread nD τ).loc main_arg2)
/-- The up projection. -/
abbrev pu (c : Dev nD) : (⟨2, ![8192, 32]⟩ : Shape).Idx → EReal := m ((c : Thread nD τ).loc main_arg5)
/-- The bias. -/
abbrev bias (c : Dev nD) : (⟨1, ![8192]⟩ : Shape).Idx → EReal := m ((c : Thread nD τ).loc main_arg6)

/-! ## One point's terms, over the program's arguments -/

/-- What a point adds, from its blocks, is its column tile's product for its block of channels. -/
theorem tileTerm_blocks (c : Dev nD) (t : Fin cfg0.N) (a : Fin 256) (b : Fin 1024) :
    tileTerm (tileOf t) (iblk m c 0 t) (iblk m c 1 t) (iblk m c 2 t) (iblk m c 3 t) a b
      = Cert.Spec.tile (xd m c) (qq m c) (ws m c) a (Cert.Spec.col (rowOf t) b) (tileOf t) := by
  unfold tileTerm Cert.Spec.tile Cert.Spec.wdeq
  refine Finset.sum_congr rfl fun k _ => ?_
  refine congrArg₂ (fun u v : EReal => u * v) (blk3 m c t a (Cert.Spec.col (tileOf t) k))
    (congrArg₂ (fun u v : EReal => u * v) ?_ ?_)
  · exact congrArg₂ (fun u v : EReal => u - v)
      (congrArg (fun w : BitVec 32 => ((w.toInt : ℝ) : EReal)) (blk0 m c t b k)) Cert.Spec.eight_bf16
  · exact (Finset.sum_congr rfl fun g _ => congrArg₂ (fun u v : EReal => u * v) (blk1 m c t b g)
        (blk2 m c t g (Cert.Spec.col (tileOf t) k))).trans
      (Cert.Spec.onehot_scale (fun g => ws m c (ix2 g (Cert.Spec.col (rowOf t) b))) (Cert.Spec.col (tileOf t) k))

/-- The low-rank product at (a, b) of a [256, 32] block with a [32, 1024] block. -/
def loraAt (x4 : Vec Ideal S256x32 .f32) (x5 : Vec Ideal S32x1024 .f32) (a : Fin 256) (b : Fin 1024) : EReal :=
  ∑ r : Fin 32, x4 (ix2 a r) * x5 (ix2 r b)

/-- The low-rank product of a point's blocks is the correction for its block of channels. -/
theorem lora_blocks (c : Dev nD) (t : Fin cfg0.N) (a : Fin 256) (b : Fin 1024) :
    loraAt (iblk m c 4 t) (iblk m c 5 t) a b = Cert.Spec.lora (la m c) (pu m c) a (Cert.Spec.col (rowOf t) b) := by
  unfold loraAt Cert.Spec.lora
  exact Finset.sum_congr rfl fun r _ => congrArg₂ (fun u v : EReal => u * v) (blk4 m c t a r) (blk5 m c t r b)

/-! ## The accumulator after each point -/

/-- Tile s's product at (a, o), for a natural number s (zero past the eight tiles). -/
def tileN (c : Dev nD) (a : Fin 256) (o : Fin 8192) (s : ℕ) : EReal :=
  if h : s < 8 then Cert.Spec.tile (xd m c) (qq m c) (ws m c) a o ⟨s, h⟩ else 0

/-- The accumulator after point n at (a, b): the correction plus the tiles up to the point's own. -/
def accVal (c : Dev nD) (n : ℕ) (hn : n < cfg0.N) (a : Fin 256) (b : Fin 1024) : EReal :=
  Cert.Spec.lora (la m c) (pu m c) a (Cert.Spec.col (rowOf ⟨n, hn⟩) b)
    + ∑ s ∈ Finset.range (n % 8 + 1), tileN m c a (Cert.Spec.col (rowOf ⟨n, hn⟩) b) s

theorem tileN_tileOf (c : Dev nD) (t : Fin cfg0.N) (a : Fin 256) (o : Fin 8192) :
    Cert.Spec.tile (xd m c) (qq m c) (ws m c) a o (tileOf t) = tileN m c a o (t.val % 8) := by
  unfold tileN
  rw [dif_pos (Nat.mod_lt _ (by norm_num))]
  rfl

/-- A point past the first tile adds its tile to what the point before left. -/
theorem accVal_step (c : Dev nD) (n : ℕ) (hn : n + 1 < cfg0.N) (h0 : ¬(n + 1) % 8 = 0) (a : Fin 256) (b : Fin 1024) :
    accVal m c n (Nat.lt_of_succ_lt hn) a b
        + Cert.Spec.tile (xd m c) (qq m c) (ws m c) a (Cert.Spec.col (rowOf ⟨n + 1, hn⟩) b) (tileOf ⟨n + 1, hn⟩)
      = accVal m c (n + 1) hn a b := by
  have hr : rowOf ⟨n, Nat.lt_of_succ_lt hn⟩ = rowOf ⟨n + 1, hn⟩ := Fin.ext (by show n / 8 = (n + 1) / 8; omega)
  have hm : (n + 1) % 8 = n % 8 + 1 := by omega
  unfold accVal
  rw [tileN_tileOf, hr, add_assoc]
  congr 1
  show _ + tileN m c a _ ((n + 1) % 8) = _
  rw [hm, Finset.sum_range_succ _ (n % 8 + 1)]

/-- What the accumulator holds after point n (the scratch component of the generated point-by-point contents) is the
    correction plus the tiles up to the point's own. -/
theorem acc_eq (c : Dev nD) : ∀ (n : ℕ) (hn : n < cfg0.N) (a : Fin 256) (b : Fin 1024),
    (outsAt0 m c n hn).2 (ix2 a b) = accVal m c n hn a b
  | 0, hn, a, b => by
    rw [outsAt0_A m c ⟨0, hn⟩ (Nat.zero_mod _) (by show ¬ 0 % 8 = 7; decide)]
    dsimp only
    rw [Body.scratch_A]
    show loraAt (iblk m c 4 ⟨0, hn⟩) (iblk m c 5 ⟨0, hn⟩) a b + tileTerm (tileOf ⟨0, hn⟩) (iblk m c 0 ⟨0, hn⟩) (iblk m c 1 ⟨0, hn⟩) (iblk m c 2 ⟨0, hn⟩) (iblk m c 3 ⟨0, hn⟩) a b = _
    rw [lora_blocks, tileTerm_blocks, tileN_tileOf]
    unfold accVal
    rw [show (0 % 8 + 1) = 1 from rfl, Finset.sum_range_one]
    rfl
  | n + 1, hn, a, b => by
    have hN : cfg0.N = 64 := N_0
    by_cases h0 : (n + 1) % 8 = 0
    · have h1 : ¬(n + 1) % 8 = 7 := by omega
      rw [outsAt0_A m c ⟨n + 1, hn⟩ h0 h1]
      dsimp only
      rw [Body.scratch_A]
      show loraAt (iblk m c 4 ⟨n + 1, hn⟩) (iblk m c 5 ⟨n + 1, hn⟩) a b + tileTerm (tileOf ⟨n + 1, hn⟩) (iblk m c 0 ⟨n + 1, hn⟩) (iblk m c 1 ⟨n + 1, hn⟩) (iblk m c 2 ⟨n + 1, hn⟩) (iblk m c 3 ⟨n + 1, hn⟩) a b = _
      rw [lora_blocks, tileTerm_blocks, tileN_tileOf]
      unfold accVal
      rw [show ((⟨n + 1, hn⟩ : Fin cfg0.N).val % 8) = 0 from h0, show (0 + 1) = 1 from rfl, Finset.sum_range_one]
    · by_cases h1 : (n + 1) % 8 = 7
      · rw [outsAt0_C m c ⟨n + 1, hn⟩ h0 h1]
        dsimp only
        rw [Body.scratch_C]
        show (outsAt0 m c n (Nat.lt_of_succ_lt hn)).2 (ix2 a b) + tileTerm (tileOf ⟨n + 1, hn⟩) (iblk m c 0 ⟨n + 1, hn⟩) (iblk m c 1 ⟨n + 1, hn⟩) (iblk m c 2 ⟨n + 1, hn⟩) (iblk m c 3 ⟨n + 1, hn⟩) a b = _
        rw [acc_eq c n (Nat.lt_of_succ_lt hn) a b, tileTerm_blocks]
        exact accVal_step m c n hn h0 a b
      · rw [outsAt0_B m c ⟨n + 1, hn⟩ h0 h1]
        dsimp only
        rw [Body.scratch_B]
        show (outsAt0 m c n (Nat.lt_of_succ_lt hn)).2 (ix2 a b) + tileTerm (tileOf ⟨n + 1, hn⟩) (iblk m c 0 ⟨n + 1, hn⟩) (iblk m c 1 ⟨n + 1, hn⟩) (iblk m c 2 ⟨n + 1, hn⟩) (iblk m c 3 ⟨n + 1, hn⟩) a b = _
        rw [acc_eq c n (Nat.lt_of_succ_lt hn) a b, tileTerm_blocks]
        exact accVal_step m c n hn h0 a b

/-- After the last column tile the accumulator holds the correction plus the whole product. -/
theorem accVal_last (c : Dev nD) (n : ℕ) (hn : n < cfg0.N) (h7 : n % 8 = 7) (a : Fin 256) (b : Fin 1024) :
    accVal m c n hn a b
      = Cert.Spec.lora (la m c) (pu m c) a (Cert.Spec.col (rowOf ⟨n, hn⟩) b)
        + Cert.Spec.gemm (xd m c) (qq m c) (ws m c) a (Cert.Spec.col (rowOf ⟨n, hn⟩) b) := by
  unfold accVal
  rw [h7, Cert.Spec.gemm_eq_tiles, Finset.sum_range]
  refine congrArg (fun u : EReal => _ + u) (Finset.sum_congr rfl fun s _ => ?_)
  unfold tileN
  rw [dif_pos s.isLt]

end Cert.KernelIdeal.Accum

end
-- ==== Proof.Final.lean ====
/-
  From the accumulator to the program's result.

  The point that works on the last column tile of a block of 1024 output channels adds the bias row to the
  accumulator and stores the sum into the output block, which the pipeline then writes back: block t / 8 of the
  [256, 8192] result array.  The eight write-backs tile the array, so the array ends holding the layer's function at
  every index; the program's last line reshapes it to [64, 4, 8192].
-/
import proofs.«131592_j37452114821821_2_alg».proof.Proof.Accum
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.KernelIdeal.Grid Cert.KernelIdeal.Blocks Cert.KernelIdeal.Accum

variable (m : (ℓ : Loc nD τ sig) → Buf (Elt Ideal) ℓ) (ρ : Dev nD → PrngReg)

/-- The result array before the last reshape: the layer's function of the argument arrays. -/
def OUT (c : Dev nD) : Buf (Elt Ideal) ((c : Thread nD τ).loc main_v33) :=
  Cert.Spec.outArr (xd m c) (la m c) (qq m c) (ws m c) (pu m c) (bias m c)

/-- What the last-tile point leaves in the output block: the layer's function on the point's 1024 channels. -/
theorem out_last (c : Dev nD) : ∀ (n : ℕ) (hn : n < cfg0.N) (h7 : n % 8 = 7) (a : Fin 256) (b : Fin 1024),
    (outsAt0 m c n hn).1 (ix2 a b)
      = Cert.Spec.out (xd m c) (la m c) (qq m c) (ws m c) (pu m c) (bias m c) a (Cert.Spec.col (rowOf ⟨n, hn⟩) b)
  | 0, hn, h7, a, b => absurd h7 (by decide)
  | n + 1, hn, h7, a, b => by
    have h0 : ¬(n + 1) % 8 = 0 := by omega
    rw [outsAt0_C m c ⟨n + 1, hn⟩ h0 h7]
    dsimp only
    rw [Body.out_C]
    show ((outsAt0 m c n (Nat.lt_of_succ_lt hn)).2 (ix2 a b) + tileTerm (tileOf ⟨n + 1, hn⟩) (iblk m c 0 ⟨n + 1, hn⟩) (iblk m c 1 ⟨n + 1, hn⟩) (iblk m c 2 ⟨n + 1, hn⟩) (iblk m c 3 ⟨n + 1, hn⟩) a b)
      + (iblk m c 6 ⟨n + 1, hn⟩ : Vec Ideal S1x1024 .f32) (ix2 (0 : Fin 1) b) = _
    rw [acc_eq m c n (Nat.lt_of_succ_lt hn) a b, tileTerm_blocks, accVal_step m c n hn h0 a b,
      accVal_last m c (n + 1) hn h7 a b, blk6 m c ⟨n + 1, hn⟩ b]
    rfl

/-- Where the output window's block sits at a point: at the top, in the column block t / 8. -/
theorem idx7 : ∀ t : Fin cfg0.N, win0_7.index t 0 = 0 ∧ win0_7.index t 1 = t.val / 8 :=
  (by decide +kernel : ∀ t : Fin grid0.N, win0_7.index t 0 = 0 ∧ win0_7.index t 1 = t.val / 8)

/-- The output window's block is never cut. -/
theorem xsize7 : ∀ t : Fin cfg0.N, win0_7.xsize (grid0.coords t) 0 = 256 ∧ win0_7.xsize (grid0.coords t) 1 = 1024 :=
  (by decide +kernel : ∀ t : Fin grid0.N, win0_7.xsize (grid0.coords t) 0 = 256 ∧ win0_7.xsize (grid0.coords t) 1 = 1024)

/-- Every write-back writes its block of the layer's function. -/
theorem flushed_eq (c : Dev nD) (t : Fin cfg0.N) (hf : (cfg0.win 7).flush t = true) :
    (dats m 0 c).flushed 7 t = ((cfg0.win 7).blk t).view.read (Elt Ideal) (OUT m c) := by
  have h7 : t.val % 8 = 7 := (flush0_7 t).mp hf
  have hi := idx7 t
  show (cfg0.win 7).cut (grid0.coords t) ((dats m 0 c).after 7 t) = _
  rw [after0_7]
  funext y
  rw [View.read_apply]
  have hL : (cfg0.win 7).cut (grid0.coords t) (outsAt0 m c t.val t.isLt).1 y
      = (outsAt0 m c t.val t.isLt).1 (ix2 (y 0) (y 1)) :=
    congrArg (outsAt0 m c t.val t.isLt).1 (funext fun d => by
      match d with
      | ⟨0, _⟩ => first | rfl | exact Fin.ext rfl
      | ⟨1, _⟩ => first | rfl | exact Fin.ext rfl)
  rw [hL, out_last m c t.val t.isLt h7 (y 0) (y 1)]
  show _ = OUT m c (((cfg0.win 7).blk t).view.emb y)
  unfold OUT Cert.Spec.outArr
  congr 1 <;> apply Fin.ext
  · show (y 0).val = win0_7.index t 0 * 256 + 1 * (y 0).val
    rw [hi.1]; omega
  · show 1024 * (t.val / 8) + (y 1).val = win0_7.index t 1 * 1024 + 1 * (y 1).val
    rw [hi.2]; omega

/-- The eight write-backs cover the result array: column o lies in the block of the point 8 * (o / 1024) + 7. -/
theorem cover (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0 : Nat) < 256 := (i 0).isLt
  have h1 : (i 1 : Nat) < 8192 := (i 1).isLt
  have hN : cfg0.N = 64 := N_0
  have ht : 8 * ((i 1 : Nat) / 1024) + 7 < cfg0.N := by rw [hN]; omega
  refine ⟨⟨8 * ((i 1 : Nat) / 1024) + 7, ht⟩, (flush0_7 _).mpr (by show (8 * ((i 1 : Nat) / 1024) + 7) % 8 = 7; omega), ?_⟩
  have hi := idx7 ⟨8 * ((i 1 : Nat) / 1024) + 7, ht⟩
  have hx := xsize7 ⟨8 * ((i 1 : Nat) / 1024) + 7, ht⟩
  show i ∈ ((View.whole main_v33).slice (win0_7.rect ⟨8 * ((i 1 : Nat) / 1024) + 7, ht⟩)).set
  rw [View.set_slice_whole, Rect.mem_set_unit]
  intro a
  match a with
  | ⟨0, _⟩ =>
    show win0_7.index ⟨8 * ((i 1 : Nat) / 1024) + 7, ht⟩ 0 * win0_7.size 0 ≤ (i 0 : Nat) ∧ (i 0 : Nat) < win0_7.index ⟨8 * ((i 1 : Nat) / 1024) + 7, ht⟩ 0 * win0_7.size 0 + win0_7.xsize (grid0.coords ⟨8 * ((i 1 : Nat) / 1024) + 7, ht⟩) 0
    rw [hi.1, hx.1]; omega
  | ⟨1, _⟩ =>
    show win0_7.index ⟨8 * ((i 1 : Nat) / 1024) + 7, ht⟩ 1 * win0_7.size 1 ≤ (i 1 : Nat) ∧ (i 1 : Nat) < win0_7.index ⟨8 * ((i 1 : Nat) / 1024) + 7, ht⟩ 1 * win0_7.size 1 + win0_7.xsize (grid0.coords ⟨8 * ((i 1 : Nat) / 1024) + 7, ht⟩) 1
    rw [hi.2, hx.2, show win0_7.size 1 = 1024 from rfl]
    show (8 * ((i 1 : Nat) / 1024) + 7) / 8 * 1024 ≤ (i 1 : Nat) ∧ (i 1 : Nat) < (8 * ((i 1 : Nat) / 1024) + 7) / 8 * 1024 + 1024
    omega

/-- So the result array ends holding the layer's function. -/
theorem final_o (c : Dev nD) : (dats m 0 c).arrAt 7 cfg0.N = OUT m c :=
  (dats m 0 c).arrAt_eq_of_cover 7 (OUT m c) (flushed_eq m c) (cover c)

/-- The program's last line reshapes the result array. -/
theorem tail_eq (c : Dev nD) :
    Pipeline.afterTail₀ cfgs (dats m) 0 (V0 m) [hostOps1] c main_v34
      = shapeCast _ (OUT m c) shapeCasts_S256x8192_S64x4x8192 := by
  have e := (Pipeline.withArrays_arr spec0 launch0.win.arr_inj c (V0 m c) (fun w => (dats m 0 c).arrAt w cfg0.N) 7).trans
    (final_o m c)
  unfold Pipeline.afterTail₀
  show StableHlo.after hostOps1 _ (Proc.devRef .tc main_v34) = _
  after_results
  exact congrArg (fun x => shapeCast _ x shapeCasts_S256x8192_S64x4x8192) e

set_option backward.isDefEq.respectTransparency.types false in
/-- The run, read: the result at the reshaped layer's function, the arguments unchanged. -/
theorem run : θ_run defs (onTc (τ := τ) (main (F := Ideal))) ⟨m, fun _ => 0, ρ⟩ fun r => ∀ c : Dev nD,
      r.2.mem ((c.tc : Thread nD τ).loc main_v34) = shapeCast _ (OUT m c) shapeCasts_S256x8192_S64x4x8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v34 (Pipeline.mem_restRefs_of main_v34 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Final

end
-- ==== Proof.RefSpec.lean ====
/-
  The reference program's result, before its last reshape, is the layer's function of the argument arrays.
-/
import proofs.«131592_j37452114821821_2_alg».proof.Proof.Gen.ReferenceIdeal.Read
import proofs.«131592_j37452114821821_2_alg».proof.Proof.Spec

noncomputable section

open Idealize.ShloMosaic Idealize.ShloMosaic.TcCoe Idealize.SL.Sem Idealize.ShloMosaic.ValueIdx
open scoped BigOperators

namespace Cert.RefSpec
open Cert.ReferenceIdeal Cert.ReferenceIdeal.Read

/-! ## Columns and groups

A column c of the 8192 splits as 64 * (c / 64) + c % 64: its group and its place inside the group.  The reference
program reshapes [8192, 8192] to [8192, 128, 64] and back, which is this splitting read in row-major order. -/

/-- The place of column c inside its group of 64. -/
def sub (c : Fin 8192) : Fin 64 := ⟨c.val % 64, Nat.mod_lt _ (by norm_num)⟩

/-! ## The weight operand

Entry (c, o) of the transposed, dequantized weight is the code of channel o at column c, less 8, times the scale of
the column's group for channel o. -/

theorem weight_apply (x1 : (⟨S8192x8192, .i32⟩ : BufTy).Contents (Elt Ideal))
    (x2 : (⟨S128x8192, .f32⟩ : BufTy).Contents (Elt Ideal)) (c o : Fin 8192) :
    val_main_v31 (F := Ideal) x1 x2 (ix2 c o) = Cert.Spec.wdeq x1 x2 o c := by
  -- the transpose swaps the two coordinates
  have e31 : idx_main_v31 (ix2 c o) = ix2 o c := funext fun a => Fin.ext (by
    match a with
    | ⟨0, _⟩ => rfl
    | ⟨1, _⟩ => rfl)
  -- flat position 8192 * o + c is (o, c / 64, c % 64) in [8192, 128, 64]
  have e30 : idx_main_v30 (ix2 o c) = ix3 o (Cert.Spec.grp c) (sub c) := funext fun a => Fin.ext (by
    have ho := o.isLt; have hc := c.isLt
    match a with
    | ⟨0, _⟩ => show (o.val * 8192 + c.val) / 8192 = o.val; omega
    | ⟨1, _⟩ => show (o.val * 8192 + c.val) / 64 % 128 = c.val / 64; omega
    | ⟨2, _⟩ => show (o.val * 8192 + c.val) % 64 = c.val % 64; omega)
  -- and back
  have e25 : idx_main_v25 (ix3 o (Cert.Spec.grp c) (sub c)) = ix2 o c := funext fun a => Fin.ext (by
    have ho := o.isLt; have hc := c.isLt
    match a with
    | ⟨0, _⟩ => show ((o.val * 128 + c.val / 64) * 64 + c.val % 64) / 8192 = o.val; omega
    | ⟨1, _⟩ => show ((o.val * 128 + c.val / 64) * 64 + c.val % 64) % 8192 = c.val; omega)
  -- the scale is read at (group, channel)
  have e28 : idx_main_v26 (idx_main_v27 (idx_main_v28 (ix3 o (Cert.Spec.grp c) (sub c)))) = ix2 (Cert.Spec.grp c) o :=
    funext fun a => Fin.ext (by
      match a with
      | ⟨0, _⟩ => rfl
      | ⟨1, _⟩ => rfl)
  rw [val_main_v31_apply, e31, val_main_v30_apply, e30, val_main_v29_apply, val_main_v25_apply, e25,
    val_main_v24_apply, val_main_v22_apply, val_main_v23_apply, val_main_cst_4_apply,
    val_main_v28_apply, val_main_v27_apply, val_main_v26_apply, e28]
  show ((((x1 (ix2 o c)).toInt : ℝ) : EReal) - Ideal.ofBits .f32 0x41000000#32) * x2 (ix2 (Cert.Spec.grp c) o) = _
  rw [Cert.Spec.eight_f32]
  rfl

/-! ## The low-rank correction -/

theorem lora_apply (x0 : (⟨S64x4x8192, .f32⟩ : BufTy).Contents (Elt Ideal))
    (x4 x5 : (⟨S8192x32, .f32⟩ : BufTy).Contents (Elt Ideal)) (a : Fin 256) (o : Fin 8192) :
    val_main_v3 (F := Ideal) x0 x4 x5 (ix2 a o) = Cert.Spec.lora (val_main_v1 (F := Ideal) x0 x4) x5 a o := by
  rw [val_main_v3_apply]
  unfold Cert.Spec.lora
  refine Finset.sum_congr rfl fun r _ => ?_
  have el : lidx_main_v3 (ix2 a o) r = ix2 a r := funext fun d => Fin.ext (by
    match d with
    | ⟨0, _⟩ => rfl
    | ⟨1, _⟩ => rfl)
  have er : idx_main_v2 (ridx_main_v3 (ix2 a o) r) = ix2 o r := funext fun d => Fin.ext (by
    match d with
    | ⟨0, _⟩ => rfl
    | ⟨1, _⟩ => rfl)
  rw [val_main_v2_apply, el, er]

/-! ## The bias -/

theorem bias_apply (x6 : (⟨S8192, .f32⟩ : BufTy).Contents (Elt Ideal)) (a : Fin 256) (o : Fin 8192) :
    val_main_v35 (F := Ideal) x6 (ix2 a o) = x6 (ix1 o) := by
  have e : idx_main_v34 (idx_main_v35 (ix2 a o)) = ix1 o := funext fun d => Fin.ext (by
    match d with
    | ⟨0, _⟩ => rfl)
  rw [val_main_v35_apply, val_main_v34_apply, e]

/-! ## The big product -/

theorem gemm_apply (x0 : (⟨S64x4x8192, .f32⟩ : BufTy).Contents (Elt Ideal)) (x1 : (⟨S8192x8192, .i32⟩ : BufTy).Contents (Elt Ideal))
    (x2 : (⟨S128x8192, .f32⟩ : BufTy).Contents (Elt Ideal)) (x3 : (⟨S8192, .f32⟩ : BufTy).Contents (Elt Ideal))
    (a : Fin 256) (o : Fin 8192) :
    val_main_v32 (F := Ideal) x0 x1 x2 x3 (ix2 a o) = Cert.Spec.gemm (val_main_v21 (F := Ideal) x0 x3) x1 x2 a o := by
  rw [val_main_v32_apply]
  unfold Cert.Spec.gemm
  refine Finset.sum_congr rfl fun c _ => ?_
  have el : lidx_main_v32 (ix2 a o) c = ix2 a c := funext fun d => Fin.ext (by
    match d with
    | ⟨0, _⟩ => rfl
    | ⟨1, _⟩ => rfl)
  have er : ridx_main_v32 (ix2 a o) c = ix2 c o := funext fun d => Fin.ext (by
    match d with
    | ⟨0, _⟩ => rfl
    | ⟨1, _⟩ => rfl)
  rw [el, er, weight_apply]

/-! ## The whole result

The reference adds the big product first, then the correction, then the bias; the layer's function is written with the
correction first.  Addition of extended reals is commutative. -/

theorem ref_is_spec (x0 : (⟨S64x4x8192, .f32⟩ : BufTy).Contents (Elt Ideal)) (x1 : (⟨S8192x8192, .i32⟩ : BufTy).Contents (Elt Ideal))
    (x2 : (⟨S128x8192, .f32⟩ : BufTy).Contents (Elt Ideal)) (x3 : (⟨S8192, .f32⟩ : BufTy).Contents (Elt Ideal))
    (x4 x5 : (⟨S8192x32, .f32⟩ : BufTy).Contents (Elt Ideal)) (x6 : (⟨S8192, .f32⟩ : BufTy).Contents (Elt Ideal)) :
    val_main_v36 (F := Ideal) x0 x1 x2 x3 x4 x5 x6
      = Cert.Spec.outArr (val_main_v21 (F := Ideal) x0 x3) (val_main_v1 (F := Ideal) x0 x4) x1 x2 x5 x6 := by
  funext j
  obtain ⟨a, o, rfl⟩ : ∃ (a : Fin 256) (o : Fin 8192), j = ix2 a o := ⟨j 0, j 1, eq_ix2 j⟩
  rw [val_main_v36_apply, val_main_v33_apply, gemm_apply, lora_apply, bias_apply]
  show (Cert.Spec.gemm (val_main_v21 (F := Ideal) x0 x3) x1 x2 a o + Cert.Spec.lora (val_main_v1 (F := Ideal) x0 x4) x5 a o) + x6 (ix1 o)
    = (Cert.Spec.lora (val_main_v1 (F := Ideal) x0 x4) x5 a o + Cert.Spec.gemm (val_main_v21 (F := Ideal) x0 x3) x1 x2 a o) + x6 (ix1 o)
  rw [add_comm (Cert.Spec.gemm _ _ _ a o)]

end Cert.RefSpec

end
-- ==== Proof.lean ====
/-
  A quantized linear layer with a low-rank correction: for a row m of the activations and an output channel o,

      out(m, o) = sum over r of la(m, r) * pu(o, r)
                + sum over c of xd(m, c) * (code(o, c) - 8) * ws(c / 64, o)
                + bias(o),

  with xd the activation divided by the smoothing factor and quantized group by group (64 columns to a group) to 4-bit
  steps and back, and la the activation times the down projection.  The kernel program computes it on a grid of 64 points,
  block of 1024 channels by tile of 1024 columns: it expands each column's scale by a product of the scale rows with a
  0/1 matrix, starts an accumulator at the correction, adds one tile's product per point, and adds the bias after the
  eighth.  The reference program multiplies each code by its group's scale and takes one product over all 8192 columns.
  Read with floats as exact extended reals the two are one function: a product with zero is zero whatever the other
  factor, and sums may be regrouped and reordered.  Both programs compute xd and la by the same operations in the same
  order, so these are carried as two functions of the arguments and never opened.

  Modules: Spec (the function and the algebra), Grid (the grid's points), Body (what each case of the kernel body leaves),
  Blocks (the blocks a point is given, over the arguments), Accum (the accumulator point by point), Final (the write-backs,
  the result array, the run), RefSpec (the reference is the function).
-/
import proofs.«131592_j37452114821821_2_alg».proof.Defs
import proofs.«131592_j37452114821821_2_alg».proof.Proof.Gen.Kernel
import proofs.«131592_j37452114821821_2_alg».proof.Proof.Gen.Kernel.Skeleton
import proofs.«131592_j37452114821821_2_alg».proof.Proof.Gen.Kernel.Launch
import proofs.«131592_j37452114821821_2_alg».proof.Proof.Gen.Kernel.Points
import proofs.«131592_j37452114821821_2_alg».proof.Proof.Gen.Kernel.Frame
import proofs.«131592_j37452114821821_2_alg».proof.Proof.Gen.KernelIdeal
import proofs.«131592_j37452114821821_2_alg».proof.Proof.Gen.KernelIdeal.Skeleton
import proofs.«131592_j37452114821821_2_alg».proof.Proof.Gen.KernelIdeal.Launch
import proofs.«131592_j37452114821821_2_alg».proof.Proof.Gen.KernelIdeal.Points
import proofs.«131592_j37452114821821_2_alg».proof.Proof.Gen.KernelIdeal.Frame
import proofs.«131592_j37452114821821_2_alg».proof.Proof.Gen.ReferenceIdeal
import proofs.«131592_j37452114821821_2_alg».proof.Proof.Gen.Pre_finite_inputs
import proofs.«131592_j37452114821821_2_alg».proof.Proof.Gen.ReferenceIdeal.Run
import proofs.«131592_j37452114821821_2_alg».proof.Proof.Gen.ReferenceIdeal.Read
import proofs.«131592_j37452114821821_2_alg».proof.Proof.Final
import proofs.«131592_j37452114821821_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- So does the reference program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel program was rewritten to read it over the extended reals. -/
theorem preserves : Cert.preserves_Kernel_KernelIdeal := trivial

/-- Over the extended reals the kernel program's result is the reshaped layer's function of its arguments, and so is the
    reference program's, from arguments that agree. -/
theorem algebraic : Cert.algebraic_KernelIdeal_ReferenceIdeal := by
  intro m ρ m' ρ' _ hagree
  refine ⟨fun c => shapeCast _ (Cert.KernelIdeal.Final.OUT m c) Cert.KernelIdeal.Facts₀.shapeCasts_S256x8192_S64x4x8192,
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq]
  unfold Cert.ReferenceIdeal.Read.val_main_v37
  rw [Cert.RefSpec.ref_is_spec, (hagree c).1, (hagree c).2.1, (hagree c).2.2.1, (hagree c).2.2.2.1, (hagree c).2.2.2.2.1,
    (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
